-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S4x4096x16x16 : Shape := ⟨4, ![4, 4096, 16, 16]⟩
abbrev S3072x1024 : Shape := ⟨2, ![3072, 1024]⟩
abbrev S3072 : Shape := ⟨1, ![3072]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S4x4096x16x16 : S_.BroadcastsInDim S4x4096x16x16 (![] : Fin 0 → Fin S4x4096x16x16.rank)
  reducesTo_S4x4096x16x16_S_d0_1_2_3 : S4x4096x16x16.ReducesTo [0, 1, 2, 3] S_
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_

variable [Facts]

def fn_part1 {F : FTy → Type} [FloatOps F] (main_arg4 : FVec F S3072x1024 .f32) (main_arg5 : FVec F S3072 .f32) (main_v13 : IVec S_ 1) (main_v16 : IVec S4x4096x16x16 1) : IVec S_ 1 :=
  let main_c_5 : IVec S_ 1 := constantI S_ 1 1#1
  let main_v17 : IVec S_ 1 := (fun x v => Host.reduce IntOp.andi x v reducesTo_S4x4096x16x16_S_d0_1_2_3 h_S_) main_v16 main_c_5
  let main_v18 : IVec S_ 1 := andi main_v13 main_v17
  let main_v19 : FVec F S3072x1024 .f32 := Host.absf main_arg4
  let main_cst_6 : FVec F S_ .f32 := constant S_ .f32 0x7F800000#32
  let main_v20 : FVec F S3072x1024 .f32 := broadcastInDim S3072x1024 ![] bcast_S_S3072x1024 main_cst_6
  let main_v21 : IVec S3072x1024 1 := cmpf .olt main_v19 main_v20
  let main_c_7 : IVec S_ 1 := constantI S_ 1 1#1
  let main_v22 : IVec S_ 1 := (fun x v => Host.reduce IntOp.andi x v reducesTo_S3072x1024_S_d0_1 h_S_) main_v21 main_c_7
  let main_v23 : IVec S_ 1 := andi main_v18 main_v22
  let main_v24 : FVec F S3072 .f32 := Host.absf main_arg5
  let main_cst_8 : FVec F S_ .f32 := constant S_ .f32 0x7F800000#32
  let main_v25 : FVec F S3072 .f32 := broadcastInDim S3072 ![] bcast_S_S3072 main_cst_8
  let main_v26 : IVec S3072 1 := cmpf .olt main_v24 main_v25
  let main_c_9 : IVec S_ 1 := constantI S_ 1 1#1
  let main_v27 : IVec S_ 1 := (fun x v => Host.reduce IntOp.andi x v reducesTo_S3072_S_d0 h_S_) main_v26 main_c_9
  let main_v28 : IVec S_ 1 := andi main_v23 main_v27
  main_v28

def fn {F : FTy → Type} [FloatOps F] (main_arg0 : FVec F S4x4096x1024 .f32) (main_arg1 : FVec F S4x4096x1024 .f32) (main_arg2 : FVec F S4x4096x1024 .f32) (main_arg3 : FVec F S4x4096x16x16 .f32) (main_arg4 : FVec F S3072x1024 .f32) (main_arg5 : FVec F S3072 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S4x4096x1024 .f32 := Host.absf main_arg1
  let main_cst_0 : FVec F S_ .f32 := constant S_ .f32 0x7F800000#32
  let main_v5 : FVec F S4x4096x1024 .f32 := broadcastInDim S4x4096x1024 ![] bcast_S_S4x4096x1024 main_cst_0
  let main_v6 : IVec S4x4096x1024 1 := cmpf .olt main_v4 main_v5
  let main_c_1 : IVec S_ 1 := constantI S_ 1 1#1
  let main_v7 : IVec S_ 1 := (fun x v => Host.reduce IntOp.andi x v reducesTo_S4x4096x1024_S_d0_1_2 h_S_) main_v6 main_c_1
  let main_v8 : IVec S_ 1 := andi main_v3 main_v7
  let main_v9 : FVec F S4x4096x1024 .f32 := Host.absf main_arg2
  let main_cst_2 : FVec F S_ .f32 := constant S_ .f32 0x7F800000#32
  let main_v10 : FVec F S4x4096x1024 .f32 := broadcastInDim S4x4096x1024 ![] bcast_S_S4x4096x1024 main_cst_2
  let main_v11 : IVec S4x4096x1024 1 := cmpf .olt main_v9 main_v10
  let main_c_3 : IVec S_ 1 := constantI S_ 1 1#1
  let main_v12 : IVec S_ 1 := (fun x v => Host.reduce IntOp.andi x v reducesTo_S4x4096x1024_S_d0_1_2 h_S_) main_v11 main_c_3
  let main_v13 : IVec S_ 1 := andi main_v8 main_v12
  let main_v14 : FVec F S4x4096x16x16 .f32 := Host.absf main_arg3
  let main_cst_4 : FVec F S_ .f32 := constant S_ .f32 0x7F800000#32
  let main_v15 : FVec F S4x4096x16x16 .f32 := broadcastInDim S4x4096x16x16 ![] bcast_S_S4x4096x16x16 main_cst_4
  let main_v16 : IVec S4x4096x16x16 1 := cmpf .olt main_v14 main_v15
  fn_part1 (F := F) main_arg4 main_arg5 main_v13 main_v16
-- ==== Kernel.lean ====
abbrev S4x4096x1024 : Shape := ⟨3, ![4, 4096, 1024]⟩
abbrev S4x4096x16x16 : Shape := ⟨4, ![4, 4096, 16, 16]⟩
abbrev S3072x1024 : Shape := ⟨2, ![3072, 1024]⟩
abbrev S3072 : Shape := ⟨1, ![3072]⟩
abbrev S1024x3072 : Shape := ⟨2, ![1024, 3072]⟩
abbrev S1x3072 : Shape := ⟨2, ![1, 3072]⟩
abbrev S1x128x1024 : Shape := ⟨3, ![1, 128, 1024]⟩
abbrev S1x128x16x16 : Shape := ⟨4, ![1, 128, 16, 16]⟩
abbrev S128x1024 : Shape := ⟨2, ![128, 1024]⟩
abbrev S128x3072 : Shape := ⟨2, ![128, 3072]⟩
abbrev S128x16x64 : Shape := ⟨3, ![128, 16, 64]⟩
abbrev S128x16x16 : Shape := ⟨3, ![128, 16, 16]⟩
abbrev S128x16 : Shape := ⟨2, ![128, 16]⟩
abbrev S128x16x1 : Shape := ⟨3, ![128, 16, 1]⟩

abbrev nBuf : Space → Nat
  | .hbm => 10
  | .vmem => 8
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S4x4096x16x16, .f32⟩
  | .hbm, ⟨4, _⟩ => ⟨S3072x1024, .f32⟩
  | .hbm, ⟨5, _⟩ => ⟨S3072, .f32⟩
  | .hbm, ⟨6, _⟩ => ⟨S1024x3072, .f32⟩
  | .hbm, ⟨7, _⟩ => ⟨S1024x3072, .bf16⟩
  | .hbm, ⟨8, _⟩ => ⟨S1x3072, .f32⟩
  | .hbm, ⟨9, _⟩ => ⟨S4x4096x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x16x16, .f32⟩
  | .local _ .vmem, ⟨3, _⟩ => ⟨S1x128x16x16, .f32⟩
  | .local _ .vmem, ⟨4, _⟩ => ⟨S1024x3072, .bf16⟩
  | .local _ .vmem, ⟨5, _⟩ => ⟨S1x3072, .f32⟩
  | .local _ .vmem, ⟨6, _⟩ => ⟨S1x128x1024, .f32⟩
  | .local _ .vmem, ⟨7, _⟩ => ⟨S1x128x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x16x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  transposes_S3072x1024_S1024x3072_1_0 : S3072x1024.Transposes [1, 0] S1024x3072
  bitsLt_bf16_f32 : FTy.bits .bf16 < FTy.bits .f32
  shapeCasts_S3072_S1x3072 : S3072.ShapeCasts S1x3072
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S128x3072 : S1x3072.Broadcasts S128x3072
  slices_S128x3072_o0_0_S128x1024 : S128x3072.Slices ![0, 0] S128x1024
  shapeCasts_S128x1024_S128x16x64 : S128x1024.ShapeCasts S128x16x64
  slices_S128x3072_o0_1024_S128x1024 : S128x3072.Slices ![0, 1024] S128x1024
  slices_S128x3072_o0_2048_S128x1024 : S128x3072.Slices ![0, 2048] S128x1024
  inb_S1x128x16x16_S1x128x16x16_0_0_0_0 : ∀ a, (![0, 0, 0, 0] : Fin 4 → Nat) a + S1x128x16x16.size a ≤ S1x128x16x16.size a
  h_S1x128x16x16 : 0 < S1x128x16x16.numel
  shapeCasts_S1x128x16x16_S128x16x16 : S1x128x16x16.ShapeCasts S128x16x16
  reduces_S128x16x16_S128x16 : S128x16x16.Reduces [2] S128x16
  shapeCasts_S128x16_S128x16x1 : S128x16.ShapeCasts S128x16x1
  broadcasts_S128x16x1_S128x16x16 : S128x16x1.Broadcasts S128x16x16
  shapeCasts_S128x16x64_S128x1024 : S128x16x64.ShapeCasts S128x1024
  shapeCasts_S128x1024_S1x128x1024 : S128x1024.ShapeCasts S1x128x1024
  dot_S128x1024_S1024x3072_S128x3072_1_0_0_1_n_n_wf : DotDims.WF S128x1024 S1024x3072 S128x3072 [1] [0] [0] [1] [] []
  dot_S128x16x64_S128x16x64_S128x16x16_2_2_1_1_0_0_wf : DotDims.WF S128x16x64 S128x16x64 S128x16x16 [2] [2] [1] [1] [0] [0]
  dot_S128x16x16_S128x16x64_S128x16x64_2_1_1_2_0_0_wf : DotDims.WF S128x16x16 S128x16x64 S128x16x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x1024.size a ≤ S4x4096x1024.size a
  hwx0_0 : ∀ i : grid0.Coords, EltTy.bits .f32 = 32 ∨ (Rect.block (s := S4x4096x1024) S1x128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x16x16.size a ≤ S4x4096x16x16.size a
  hwx0_1 : ∀ i : grid0.Coords, EltTy.bits .f32 = 32 ∨ (Rect.block (s := S4x4096x16x16) S1x128x16x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x3072.size a ≤ S1024x3072.size a
  hwx0_2 : ∀ i : grid0.Coords, EltTy.bits .bf16 = 32 ∨ (Rect.block (s := S1024x3072) S1024x3072.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x3072.size a ≤ S1x3072.size a
  hwx0_3 : ∀ i : grid0.Coords, EltTy.bits .f32 = 32 ∨ (Rect.block (s := S1x3072) S1x3072.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x1024.size a ≤ S4x4096x1024.size a
  hwx0_4 : ∀ i : grid0.Coords, EltTy.bits .f32 = 32 ∨ (Rect.block (s := S4x4096x1024) S1x128x1024.size (cc0_transform_4 i) (hinb0_4 i)).WholeWords (EltTy.packing .f32)

variable [Facts₀]

def dot_S128x1024_S1024x3072_S128x3072_1_0_0_1_n_n : DotDims S128x1024 S1024x3072 S128x3072 where
  lhsContracting := [1]
  rhsContracting := [0]
  lhsNonContracting := [0]
  rhsNonContracting := [1]
  lhsBatch := []
  rhsBatch := []
  wf := dot_S128x1024_S1024x3072_S128x3072_1_0_0_1_n_n_wf
def dot_S128x16x64_S128x16x64_S128x16x16_2_2_1_1_0_0 : DotDims S128x16x64 S128x16x64 S128x16x16 where
  lhsContracting := [2]
  rhsContracting := [2]
  lhsNonContracting := [1]
  rhsNonContracting := [1]
  lhsBatch := [0]
  rhsBatch := [0]
  wf := dot_S128x16x64_S128x16x64_S128x16x16_2_2_1_1_0_0_wf
def dot_S128x16x16_S128x16x64_S128x16x64_2_1_1_2_0_0 : DotDims S128x16x16 S128x16x64 S128x16x64 where
  lhsContracting := [2]
  rhsContracting := [1]
  lhsNonContracting := [1]
  rhsNonContracting := [2]
  lhsBatch := [0]
  rhsBatch := [0]
  wf := dot_S128x16x16_S128x16x64_S128x16x64_2_1_1_2_0_0_wf

abbrev win0_0 : Pipeline.Window sig grid0 :=
  Pipeline.Window.ofSpec (Memref.whole main_arg0) S1x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x128x16x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x3072.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x128x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x4096x1024 : Shape := ⟨3, ![4, 4096, 1024]⟩
abbrev S4x4096x16x16 : Shape := ⟨4, ![4, 4096, 16, 16]⟩
abbrev S3072x1024 : Shape := ⟨2, ![3072, 1024]⟩
abbrev S3072 : Shape := ⟨1, ![3072]⟩
abbrev S4x4096x3072 : Shape := ⟨3, ![4, 4096, 3072]⟩
abbrev S1x1x3072 : Shape := ⟨3, ![1, 1, 3072]⟩
abbrev S4x4096x16x64 : Shape := ⟨4, ![4, 4096, 16, 64]⟩
abbrev S_ : Shape := ⟨0, ![]⟩
abbrev S4x4096x16 : Shape := ⟨3, ![4, 4096, 16]⟩
abbrev S4x4096x16x1 : Shape := ⟨4, ![4, 4096, 16, 1]⟩

abbrev nBuf : Space → Nat
  | .hbm => 37
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S4x4096x16x16, .f32⟩
  | .hbm, ⟨4, _⟩ => ⟨S3072x1024, .f32⟩
  | .hbm, ⟨5, _⟩ => ⟨S3072, .f32⟩
  | .hbm, ⟨6, _⟩ => ⟨S4x4096x3072, .f32⟩
  | .hbm, ⟨7, _⟩ => ⟨S1x1x3072, .f32⟩
  | .hbm, ⟨8, _⟩ => ⟨S4x4096x3072, .f32⟩
  | .hbm, ⟨9, _⟩ => ⟨S4x4096x3072, .f32⟩
  | .hbm, ⟨10, _⟩ => ⟨S4x4096x1024, .f32⟩
  | .hbm, ⟨11, _⟩ => ⟨S4x4096x1024, .f32⟩
  | .hbm, ⟨12, _⟩ => ⟨S4x4096x1024, .f32⟩
  | .hbm, ⟨13, _⟩ => ⟨S4x4096x16x64, .f32⟩
  | .hbm, ⟨14, _⟩ => ⟨S4x4096x16x64, .f32⟩
  | .hbm, ⟨15, _⟩ => ⟨S4x4096x16x64, .f32⟩
  | .hbm, ⟨16, _⟩ => ⟨S4x4096x16x16, .f32⟩
  | .hbm, ⟨17, _⟩ => ⟨S_, .f32⟩
  | .hbm, ⟨18, _⟩ => ⟨S4x4096x16x16, .f32⟩
  | .hbm, ⟨19, _⟩ => ⟨S4x4096x16x16, .f32⟩
  | .hbm, ⟨20, _⟩ => ⟨S4x4096x16x16, .f32⟩
  | .hbm, ⟨21, _⟩ => ⟨S_, .f32⟩
  | .hbm, ⟨22, _⟩ => ⟨S4x4096x16, .f32⟩
  | .hbm, ⟨23, _⟩ => ⟨S_, .f32⟩
  | .hbm, ⟨24, _⟩ => ⟨S4x4096x16, .f32⟩
  | .hbm, ⟨25, _⟩ => ⟨S4x4096x16, .f32⟩
  | .hbm, ⟨26, _⟩ => ⟨S4x4096x16x1, .f32⟩
  | .hbm, ⟨27, _⟩ => ⟨S4x4096x16x16, .f32⟩
  | .hbm, ⟨28, _⟩ => ⟨S4x4096x16x16, .f32⟩
  | .hbm, ⟨29, _⟩ => ⟨S4x4096x16x16, .f32⟩
  | .hbm, ⟨30, _⟩ => ⟨S_, .f32⟩
  | .hbm, ⟨31, _⟩ => ⟨S4x4096x16, .f32⟩
  | .hbm, ⟨32, _⟩ => ⟨S4x4096x16x1, .f32⟩
  | .hbm, ⟨33, _⟩ => ⟨S4x4096x16x16, .f32⟩
  | .hbm, ⟨34, _⟩ => ⟨S4x4096x16x16, .f32⟩
  | .hbm, ⟨35, _⟩ => ⟨S4x4096x16x64, .f32⟩
  | .hbm, ⟨36, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S4x4096x3072_0_1_2 : S1x1x3072.BroadcastsInDim S4x4096x3072 (![0, 1, 2] : Fin 3 → Fin S4x4096x3072.rank)
  slices_S4x4096x3072_S4x4096x1024_0_0_0 : S4x4096x3072.Slices ![0, 0, 0] S4x4096x1024
  slices_S4x4096x3072_S4x4096x1024_0_0_1024 : S4x4096x3072.Slices ![0, 0, 1024] S4x4096x1024
  slices_S4x4096x3072_S4x4096x1024_0_0_2048 : S4x4096x3072.Slices ![0, 0, 2048] S4x4096x1024
  shapeCasts_S4x4096x1024_S4x4096x16x64 : S4x4096x1024.ShapeCasts S4x4096x16x64
  bcast_S_S4x4096x16x16 : S_.BroadcastsInDim S4x4096x16x16 (![] : Fin 0 → Fin S4x4096x16x16.rank)
  reducesTo_S4x4096x16x16_S4x4096x16_d3 : S4x4096x16x16.ReducesTo [3] S4x4096x16
  h_S_ : 0 < S_.numel
  bcast_S_S4x4096x16 : S_.BroadcastsInDim S4x4096x16 (![] : Fin 0 → Fin S4x4096x16.rank)
  bcast_S4x4096x16_S4x4096x16x1_0_1_2 : S4x4096x16.BroadcastsInDim S4x4096x16x1 (![0, 1, 2] : Fin 3 → Fin S4x4096x16x1.rank)
  bcast_S4x4096x16x1_S4x4096x16x16_0_1_2_3 : S4x4096x16x1.BroadcastsInDim S4x4096x16x16 (![0, 1, 2, 3] : Fin 4 → Fin S4x4096x16x16.rank)
  shapeCasts_S4x4096x16x64_S4x4096x1024 : S4x4096x16x64.ShapeCasts S4x4096x1024
  dot_S4x4096x1024_S3072x1024_S4x4096x3072_2_1_01_0_n_n_wf : DotDims.WF S4x4096x1024 S3072x1024 S4x4096x3072 [2] [1] [0, 1] [0] [] []
  dot_S4x4096x16x64_S4x4096x16x64_S4x4096x16x16_3_3_2_2_01_01_wf : DotDims.WF S4x4096x16x64 S4x4096x16x64 S4x4096x16x16 [3] [3] [2] [2] [0, 1] [0, 1]
  dot_S4x4096x16x16_S4x4096x16x64_S4x4096x16x64_3_2_2_3_01_01_wf : DotDims.WF S4x4096x16x16 S4x4096x16x64 S4x4096x16x64 [3] [2] [2] [3] [0, 1] [0, 1]

variable [Facts₀]

def dot_S4x4096x1024_S3072x1024_S4x4096x3072_2_1_01_0_n_n : DotDims S4x4096x1024 S3072x1024 S4x4096x3072 where
  lhsContracting := [2]
  rhsContracting := [1]
  lhsNonContracting := [0, 1]
  rhsNonContracting := [0]
  lhsBatch := []
  rhsBatch := []
  wf := dot_S4x4096x1024_S3072x1024_S4x4096x3072_2_1_01_0_n_n_wf
def dot_S4x4096x16x64_S4x4096x16x64_S4x4096x16x16_3_3_2_2_01_01 : DotDims S4x4096x16x64 S4x4096x16x64 S4x4096x16x16 where
  lhsContracting := [3]
  rhsContracting := [3]
  lhsNonContracting := [2]
  rhsNonContracting := [2]
  lhsBatch := [0, 1]
  rhsBatch := [0, 1]
  wf := dot_S4x4096x16x64_S4x4096x16x64_S4x4096x16x16_3_3_2_2_01_01_wf
def dot_S4x4096x16x16_S4x4096x16x64_S4x4096x16x64_3_2_2_3_01_01 : DotDims S4x4096x16x16 S4x4096x16x64 S4x4096x16x64 where
  lhsContracting := [3]
  rhsContracting := [2]
  lhsNonContracting := [2]
  rhsNonContracting := [3]
  lhsBatch := [0, 1]
  rhsBatch := [0, 1]
  wf := dot_S4x4096x16x16_S4x4096x16x64_S4x4096x16x64_3_2_2_3_01_01_wf

class Facts : Prop extends Facts₀ where

variable [Facts]
-- ==== Proof.HeadMix.lean ====
/-
  Head mixing within one token, on the extended reals.

  A token's projected row `r : Fin 3072 → EReal` is cut into three thirds of 1024 columns — queries, keys, values —
  and each third into 16 heads of 64 lanes (`col off h d` is lane `d` of head `h` in the third starting at `off`).
  The score of head `h` against head `g` is the inner product of query head `h` with key head `g` over the 64 lanes,
  scaled by the constant word `0x3E000000` (one eighth) and shifted by a mask entry `μ h g`. Each row `h` of the 16 × 16
  score table goes through a softmax: subtract the row's maximum (taken from `-∞`), exponentiate, divide by the row's sum.
  The output lane `(h, d)` is the sum over `g` of the softmax weight `(h, g)` times lane `d` of value head `g`.

  The row itself is a linear map of the token's 1024 inputs plus a bias (`proj`). `attend` puts the pieces together for a
  whole batch of tokens laid out as a [4, 4096, 1024] array: entry `(b, s, c)` is output lane `(c / 64, c % 64)` of token
  `(b, s)`.
-/
import Idealize.ShloMosaic.PureOps.Ideal
import Idealize.ShloMosaic.Lib.ValueIdx

noncomputable section

namespace Cert.HeadMix

open Idealize.ShloMosaic Idealize.ShloMosaic.ValueIdx

/-- Lane `d` of head `h` in the third of the row that starts at column `off`. -/
def col (off : Nat) (hoff : off + 1024 ≤ 3072) (h : Fin 16) (d : Fin 64) : Fin 3072 :=
  ⟨off + (h.val * 64 + d.val), by have := h.isLt; have := d.isLt; omega⟩

/-- The head a column of a 1024-wide third belongs to, and its lane there. -/
def headOf (c : Fin 1024) : Fin 16 := ⟨c.val / 64, by have := c.isLt; omega⟩
def laneOf (c : Fin 1024) : Fin 64 := ⟨c.val % 64, by omega⟩

/-- A token's projected row: a linear map of its inputs plus a bias. -/
def proj (x : Fin 1024 → EReal) (W : Fin 3072 → Fin 1024 → EReal) (β : Fin 3072 → EReal) (o : Fin 3072) : EReal :=
  (∑ k : Fin 1024, x k * W o k) + β o

/-- Scaled, masked inner product of query head `h` with key head `g`. -/
def score (r : Fin 3072 → EReal) (μ : Fin 16 → Fin 16 → EReal) (h g : Fin 16) : EReal :=
  (∑ d : Fin 64, r (col 0 (by decide) h d) * r (col 1024 (by decide) g d)) * Ideal.ofBits .f32 0x3E000000#32 + μ h g

/-- The maximum of row `h` of a table, taken from `-∞` (and once more against `-∞`, as both programs do). -/
def rowMax (s : Fin 16 → Fin 16 → EReal) (h : Fin 16) : EReal :=
  max (Ideal.ofBits .f32 0xFF800000#32)
    ((Finset.univ : Finset (Fin 16)).fold max (Ideal.ofBits .f32 0xFF800000#32) (fun g => s h g))

/-- The exponential of an entry less its row's maximum. -/
def expo (s : Fin 16 → Fin 16 → EReal) (h g : Fin 16) : EReal := Ideal.exp (s h g - rowMax s h)

/-- The softmax weight: that exponential over the sum of its row's. -/
def weight (s : Fin 16 → Fin 16 → EReal) (h g : Fin 16) : EReal := Ideal.div (expo s h g) (∑ g' : Fin 16, expo s h g')

/-- Output lane `(h, d)` of a token: the weights of row `h` applied to lane `d` of the value heads. -/
def mix (r : Fin 3072 → EReal) (μ : Fin 16 → Fin 16 → EReal) (h : Fin 16) (d : Fin 64) : EReal :=
  ∑ g : Fin 16, weight (score r μ) h g * r (col 2048 (by decide) g d)

/-- The whole batch: entry `(b, s, c)` from token `(b, s)` of the inputs `q`, its mask table in `mk`, the weights `W`
    (one row per output column) and the bias `β`. -/
def attend (q : (⟨3, ![4, 4096, 1024]⟩ : Shape).Idx → EReal) (mk : (⟨4, ![4, 4096, 16, 16]⟩ : Shape).Idx → EReal)
    (W : (⟨2, ![3072, 1024]⟩ : Shape).Idx → EReal) (β : (⟨1, ![3072]⟩ : Shape).Idx → EReal) :
    (⟨3, ![4, 4096, 1024]⟩ : Shape).Idx → EReal := fun i =>
  mix (proj (fun k => q (ix3 (i 0) (i 1) k)) (fun o k => W (ix2 o k)) (fun o => β (ix1 o)))
    (fun h g => mk (ix4 (i 0) (i 1) h g)) (headOf (i 2)) (laneOf (i 2))

end Cert.HeadMix

end
-- ==== Proof.LibBatchDot.lean ====
/-
  A batched product 'b i d, b j d -> b i j' read at an index, at the extended reals: for [B, M, K] and [B, N, K]
  operands, one batch axis (the leading one) and one contracted axis (the trailing one of both), the entry (b, i, j)
  of a `tpu.matmul` into the zero accumulator, or of the host's `dot_general`, is the sum over k of
  l (b, i, k) · r (b, j, k). Generic in the extents and in the printed dimension record: the record's six coordinate
  facts and its one-axis contraction are hypotheses, each closed for a printed record by unfolding
  `DotDims.lhsIdx` / `rhsIdx` and deciding which list the axis is in (batch: `dif_pos`; free: `dif_neg`, `dif_pos`;
  contracted: `DotDims.lhsIdx_val_of_single rfl`).
-/
import Idealize.ShloMosaic.PureOps.Ideal
import Idealize.ShloMosaic.PureOps.Ideal.Laws
import Idealize.ShloMosaic.Lib.ValueIdx

noncomputable section

namespace Cert.LibBatchDot

open Idealize.ShloMosaic Idealize.ShloMosaic.ValueIdx

/-- The contraction sum of a batched record, re-indexed by the contracted coordinate. -/
theorem contr_sum {B M N K : Nat} (d : DotDims ⟨3, ![B, M, K]⟩ ⟨3, ![B, N, K]⟩ ⟨3, ![B, M, N]⟩)
    (hr : d.contr.rank = 1) (hs : d.contr.size ⟨0, by omega⟩ = K)
    (hl0 : ∀ i q, (d.lhsIdx i q 0).val = (i 0).val) (hl1 : ∀ i q, (d.lhsIdx i q 1).val = (i 1).val)
    (hl2 : ∀ i q, (d.lhsIdx i q 2).val = (q ⟨0, by omega⟩).val)
    (hr0 : ∀ i q, (d.rhsIdx i q 0).val = (i 0).val) (hr1 : ∀ i q, (d.rhsIdx i q 1).val = (i 2).val)
    (hr2 : ∀ i q, (d.rhsIdx i q 2).val = (q ⟨0, by omega⟩).val)
    (l : (⟨3, ![B, M, K]⟩ : Shape).Idx → EReal) (r : (⟨3, ![B, N, K]⟩ : Shape).Idx → EReal)
    (b : Fin B) (p : Fin M) (n : Fin N) :
    ∑ q : d.contr.Idx, l (d.lhsIdx (ix3 b p n) q) * r (d.rhsIdx (ix3 b p n) q)
      = ∑ k : Fin K, l (ix3 b p k) * r (ix3 b n k) := by
  rw [← Equiv.sum_comp (contrEquiv1 d K hr hs).symm]
  refine Finset.sum_congr rfl fun k _ => ?_
  have hk := contrEquiv1_symm_val d K hr hs k
  have el : d.lhsIdx (ix3 b p n) ((contrEquiv1 d K hr hs).symm k) = ix3 b p k := funext fun a => Fin.ext (by
    match a with
    | ⟨0, _⟩ => exact hl0 _ _
    | ⟨1, _⟩ => exact hl1 _ _
    | ⟨2, _⟩ => exact (hl2 _ _).trans hk)
  have er : d.rhsIdx (ix3 b p n) ((contrEquiv1 d K hr hs).symm k) = ix3 b n k := funext fun a => Fin.ext (by
    match a with
    | ⟨0, _⟩ => exact hr0 _ _
    | ⟨1, _⟩ => exact hr1 _ _
    | ⟨2, _⟩ => exact (hr2 _ _).trans hk)
  rw [el, er]

/-- A `tpu.matmul` into the zero splat, batched: entry (b, i, j) is ∑ₖ l (b, i, k) · r (b, j, k). -/
theorem matmul_zero_apply {B M N K : Nat} {φ₁ φ₂ : FTy} (d : DotDims ⟨3, ![B, M, K]⟩ ⟨3, ![B, N, K]⟩ ⟨3, ![B, M, N]⟩)
    (prec : Option ContractPrecision)
    (hr : d.contr.rank = 1) (hs : d.contr.size ⟨0, by omega⟩ = K)
    (hl0 : ∀ i q, (d.lhsIdx i q 0).val = (i 0).val) (hl1 : ∀ i q, (d.lhsIdx i q 1).val = (i 1).val)
    (hl2 : ∀ i q, (d.lhsIdx i q 2).val = (q ⟨0, by omega⟩).val)
    (hr0 : ∀ i q, (d.rhsIdx i q 0).val = (i 0).val) (hr1 : ∀ i q, (d.rhsIdx i q 1).val = (i 2).val)
    (hr2 : ∀ i q, (d.rhsIdx i q 2).val = (q ⟨0, by omega⟩).val)
    (l : FVec Ideal ⟨3, ![B, M, K]⟩ φ₁) (r : FVec Ideal ⟨3, ![B, N, K]⟩ φ₂) (b : Fin B) (p : Fin M) (n : Fin N) :
    FloatOps.matmul d prec l r (constant ⟨3, ![B, M, N]⟩ .f32 0x00000000#32) (ix3 b p n)
      = ∑ k : Fin K, l (ix3 b p k) * r (ix3 b n k) := by
  rw [Ideal.matmul_constant_zero_apply]
  exact contr_sum d hr hs hl0 hl1 hl2 hr0 hr1 hr2 l r b p n

/-- The host's `dot_general`, batched: the same sum. -/
theorem dotGeneral_apply {B M N K : Nat} {φ₁ φ₂ : FTy} (d : DotDims ⟨3, ![B, M, K]⟩ ⟨3, ![B, N, K]⟩ ⟨3, ![B, M, N]⟩)
    (prec : Option ContractPrecision) (sched : HostSchedule)
    (hr : d.contr.rank = 1) (hs : d.contr.size ⟨0, by omega⟩ = K)
    (hl0 : ∀ i q, (d.lhsIdx i q 0).val = (i 0).val) (hl1 : ∀ i q, (d.lhsIdx i q 1).val = (i 1).val)
    (hl2 : ∀ i q, (d.lhsIdx i q 2).val = (q ⟨0, by omega⟩).val)
    (hr0 : ∀ i q, (d.rhsIdx i q 0).val = (i 0).val) (hr1 : ∀ i q, (d.rhsIdx i q 1).val = (i 2).val)
    (hr2 : ∀ i q, (d.rhsIdx i q 2).val = (q ⟨0, by omega⟩).val)
    (l : FVec Ideal ⟨3, ![B, M, K]⟩ φ₁) (r : FVec Ideal ⟨3, ![B, N, K]⟩ φ₂) (b : Fin B) (p : Fin M) (n : Fin N) :
    FloatOps.dotGeneral d prec sched l r (ix3 b p n) = ∑ k : Fin K, l (ix3 b p k) * r (ix3 b n k) := by
  rw [Ideal.dotGeneral_apply]
  exact contr_sum d hr hs hl0 hl1 hl2 hr0 hr1 hr2 l r b p n

end Cert.LibBatchDot

end
-- ==== Proof.LibBatchDotInner.lean ====
/-
  A batched product 'b i k, b k j -> b i j' read at an index, at the extended reals: for [B, M, K] and [B, K, N] operands,
  one batch axis (the leading one) and one contracted axis (the trailing axis of the left operand, the middle axis of the
  right), the entry (b, i, j) of a `tpu.matmul` into the zero accumulator is the sum over k of l (b, i, k) · r (b, k, j).
  Generic in the extents and in the dimension record: the record's six coordinate facts and its one-axis contraction
  are hypotheses (batch axis: `dif_pos`; free axis: `dif_neg`, `dif_pos`; contracted axis:
  `DotDims.lhsIdx_val_of_single rfl` / `rhsIdx_val_of_single rfl`).
-/
import Idealize.ShloMosaic.PureOps.Ideal
import Idealize.ShloMosaic.PureOps.Ideal.Laws
import Idealize.ShloMosaic.Lib.ValueIdx

noncomputable section

namespace Cert.LibBatchDotInner

open Idealize.ShloMosaic Idealize.ShloMosaic.ValueIdx

/-- The contraction sum of such a record, re-indexed by the contracted coordinate. -/
theorem contr_sum {B M N K : Nat} (d : DotDims ⟨3, ![B, M, K]⟩ ⟨3, ![B, K, N]⟩ ⟨3, ![B, M, N]⟩)
    (hr : d.contr.rank = 1) (hs : d.contr.size ⟨0, by omega⟩ = K)
    (hl0 : ∀ i q, (d.lhsIdx i q 0).val = (i 0).val) (hl1 : ∀ i q, (d.lhsIdx i q 1).val = (i 1).val)
    (hl2 : ∀ i q, (d.lhsIdx i q 2).val = (q ⟨0, by omega⟩).val)
    (hr0 : ∀ i q, (d.rhsIdx i q 0).val = (i 0).val) (hr1 : ∀ i q, (d.rhsIdx i q 1).val = (q ⟨0, by omega⟩).val)
    (hr2 : ∀ i q, (d.rhsIdx i q 2).val = (i 2).val)
    (l : (⟨3, ![B, M, K]⟩ : Shape).Idx → EReal) (r : (⟨3, ![B, K, N]⟩ : Shape).Idx → EReal)
    (b : Fin B) (p : Fin M) (n : Fin N) :
    ∑ q : d.contr.Idx, l (d.lhsIdx (ix3 b p n) q) * r (d.rhsIdx (ix3 b p n) q)
      = ∑ k : Fin K, l (ix3 b p k) * r (ix3 b k n) := by
  rw [← Equiv.sum_comp (contrEquiv1 d K hr hs).symm]
  refine Finset.sum_congr rfl fun k _ => ?_
  have hk := contrEquiv1_symm_val d K hr hs k
  have el : d.lhsIdx (ix3 b p n) ((contrEquiv1 d K hr hs).symm k) = ix3 b p k := funext fun a => Fin.ext (by
    match a with
    | ⟨0, _⟩ => exact hl0 _ _
    | ⟨1, _⟩ => exact hl1 _ _
    | ⟨2, _⟩ => exact (hl2 _ _).trans hk)
  have er : d.rhsIdx (ix3 b p n) ((contrEquiv1 d K hr hs).symm k) = ix3 b k n := funext fun a => Fin.ext (by
    match a with
    | ⟨0, _⟩ => exact hr0 _ _
    | ⟨1, _⟩ => exact (hr1 _ _).trans hk
    | ⟨2, _⟩ => exact hr2 _ _)
  rw [el, er]

/-- A `tpu.matmul` into the zero splat, batched: entry (b, i, j) is ∑ₖ l (b, i, k) · r (b, k, j). -/
theorem matmul_zero_apply {B M N K : Nat} {φ₁ φ₂ : FTy} (d : DotDims ⟨3, ![B, M, K]⟩ ⟨3, ![B, K, N]⟩ ⟨3, ![B, M, N]⟩)
    (prec : Option ContractPrecision)
    (hr : d.contr.rank = 1) (hs : d.contr.size ⟨0, by omega⟩ = K)
    (hl0 : ∀ i q, (d.lhsIdx i q 0).val = (i 0).val) (hl1 : ∀ i q, (d.lhsIdx i q 1).val = (i 1).val)
    (hl2 : ∀ i q, (d.lhsIdx i q 2).val = (q ⟨0, by omega⟩).val)
    (hr0 : ∀ i q, (d.rhsIdx i q 0).val = (i 0).val) (hr1 : ∀ i q, (d.rhsIdx i q 1).val = (q ⟨0, by omega⟩).val)
    (hr2 : ∀ i q, (d.rhsIdx i q 2).val = (i 2).val)
    (l : FVec Ideal ⟨3, ![B, M, K]⟩ φ₁) (r : FVec Ideal ⟨3, ![B, K, N]⟩ φ₂) (b : Fin B) (p : Fin M) (n : Fin N) :
    FloatOps.matmul d prec l r (constant ⟨3, ![B, M, N]⟩ .f32 0x00000000#32) (ix3 b p n)
      = ∑ k : Fin K, l (ix3 b p k) * r (ix3 b k n) := by
  rw [Ideal.matmul_constant_zero_apply]
  exact contr_sum d hr hs hl0 hl1 hl2 hr0 hr1 hr2 l r b p n

end Cert.LibBatchDotInner

end
-- ==== Proof.LibDotSum.lean ====
/-
  A product contracted over one axis, a bias repeated over rows, and the word for the number one, at an index.

  Three facts about arrays of extended reals read at one entry, none of which mentions a particular size. A product
  of an `M × K` by a `K × N` array contracted over the shared axis is, at `(p, q)`, the sum over `k : Fin K` of
  `A (p, k) · B (k, q)` (`sum_dot`): the contraction's index set has a single axis, so it is in bijection with that
  axis's coordinate, and the operand indices at output `(p, q)` and contraction position `k` are `(p, k)` and `(k, q)`.
  A vector of `m` column values laid out as the one row `[1, m]` and repeated over `n` rows reads, at `(p, q)`, its
  entry `q` (`bias_apply`): a repeated axis of extent one reads coordinate `0`, every other axis its own coordinate.
  The 32-bit word `0x3F800000` denotes the number one (`one_f32`). `add3` is the congruence of a sum of three terms.
-/
import Idealize.ShloMosaic.PureOps.Ideal.Laws
import Idealize.ShloMosaic.Lib.ValueIdx
import Idealize.ShloMosaic.Lib.Pipeline.Value

noncomputable section

namespace Cert.LibDotSum

open Idealize.ShloMosaic Idealize.ShloMosaic.ValueIdx

/-! ## A contraction over one axis as a sum over that axis's coordinate -/

/-- For a product of an `M × K` by a `K × N` array contracted over the shared axis, the sum over the contraction
    index set is the sum over `k : Fin K` of `A (p, k) · B (k, q)`: the contraction index is its one coordinate, and
    the operand indices at output `(p, q)` are `(p, k)` and `(k, q)` (the four hypotheses, which compute on a
    given record of dimension numbers). -/
theorem sum_dot {M K N : Nat} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (A : (⟨2, ![M, K]⟩ : Shape).Idx → EReal) (B : (⟨2, ![K, N]⟩ : Shape).Idx → EReal) (p : Fin M) (q : Fin N) :
    ∑ k : D.contr.Idx, A (D.lhsIdx (ix2 p q) k) * B (D.rhsIdx (ix2 p q) k) = ∑ k : Fin K, A (ix2 p k) * B (ix2 k q) := by
  refine Fintype.sum_equiv (contrEquiv1 D K hr hs) _ _ fun k => ?_
  have ha : D.lhsIdx (ix2 p q) k = ix2 p (contrEquiv1 D K hr hs k) := by
    funext a
    match a with
    | ⟨0, _⟩ => exact Fin.ext (hl0 _ k)
    | ⟨1, _⟩ => exact Fin.ext (hl1 _ k)
  have hb : D.rhsIdx (ix2 p q) k = ix2 (contrEquiv1 D K hr hs k) q := by
    funext a
    match a with
    | ⟨0, _⟩ => exact Fin.ext (hr0 _ k)
    | ⟨1, _⟩ => exact Fin.ext (hr1 _ k)
  rw [ha, hb]

/-- Three summands equal term by term. -/
theorem add3 {a b c a' b' c' : EReal} (h1 : a = a') (h2 : b = b') (h3 : c = c') : a + b + c = a' + b' + c' := by
  rw [h1, h2, h3]

/-! ## The word for the number one -/

/-- The word `0x3F800000` is the number one. -/
theorem one_f32 : Ideal.ofBits .f32 0x3F800000#32 = 1 := IdealRules.sign_bit.ideal_onePat .f32

/-! ## A bias repeated over rows, at an index -/

/-- A bias vector `[m]`, laid out as the one row `[1, m]` and repeated over `n` rows, reads at `(p, q)` its entry `q`. -/
theorem bias_apply {n m : Nat} {α : Type} (b : (⟨1, ![m]⟩ : Shape).Idx → α)
    (h1 : (⟨1, ![m]⟩ : Shape).BroadcastsInDim ⟨2, ![1, m]⟩ ![1])
    (h2 : (⟨2, ![1, m]⟩ : Shape).BroadcastsInDim ⟨2, ![n, m]⟩ ![0, 1]) (p : Fin n) (q : Fin m) :
    broadcastInDim ⟨2, ![n, m]⟩ ![0, 1] h2 (broadcastInDim ⟨2, ![1, m]⟩ ![1] h1 b) (ix2 p q) = b (ix1 q) := by
  refine (broadcastInDim_apply _ h2 _ (ix2 p q) (ix2 (0 : Fin 1) q) fun a => ?_).trans
    (broadcastInDim_apply _ h1 b (ix2 (0 : Fin 1) q) (ix1 q) fun a => ?_)
  · match a with
    | ⟨0, _⟩ => rfl
    | ⟨1, _⟩ =>
      show q.val = if m = 1 then 0 else q.val
      split
      · have := q.isLt; omega
      · rfl
  · match a with
    | ⟨0, _⟩ =>
      show q.val = if m = 1 then 0 else q.val
      split
      · have := q.isLt; omega
      · rfl

end Cert.LibDotSum

end
-- ==== Proof.LibOuterSum.lean ====
/-
  The two "keepdims" broadcasts of a pairwise table: for a matrix v of shape [A, B],
    v[:, :, None] broadcast to [A, B, C]  — entry (a, b, c) is v (a, b) — and
    v[:, None, :] broadcast to [A, C, B]  — entry (a, c, b) is v (a, b).
  A kernel writes each as a `vector.shape_cast` inserting the unit axis followed by a `vector.broadcast`; their sum is
  the outer sum s(a, i) + t(a, j) that a pairwise squared distance starts from. Generic in the extents.
  Also the column forms a `keepdims=True` reduction leaves behind: a vector [a] as a column [a, 1], a column [a, 1] as a
  row [1, a], and a column [a, 1] broadcast along its unit axis to [a, b].
-/
import Idealize.ShloMosaic.Lib.Pipeline.Value
import Idealize.ShloMosaic.Lib.ValueIdx

noncomputable section

namespace Cert.LibOuterSum

open Idealize.ShloMosaic Idealize.ShloMosaic.ValueIdx

variable {α : Type}

/-- `v[:, :, None]` broadcast along a new trailing axis. -/
theorem bcast_trailing_apply {A B C : Nat} (v : (⟨2, ![A, B]⟩ : Shape).Idx → α)
    (hc : (⟨2, ![A, B]⟩ : Shape).ShapeCasts ⟨3, ![A, B, 1]⟩)
    (hb : (⟨3, ![A, B, 1]⟩ : Shape).Broadcasts ⟨3, ![A, B, C]⟩) (a : Fin A) (b : Fin B) (c : Fin C) :
    broadcastTo ⟨3, ![A, B, C]⟩ (shapeCast ⟨3, ![A, B, 1]⟩ v hc) hb (ix3 a b c) = v (ix2 a b) := by
  rw [broadcastTo_apply _ hb (ix3 a b c) (ix3 a b (⟨0, Nat.one_pos⟩ : Fin 1)) (fun d => by
    match d with
    | ⟨0, _⟩ =>
      show a.val = if A = 1 then 0 else a.val
      split_ifs with h1
      · have := a.isLt; omega
      · rfl
    | ⟨1, _⟩ =>
      show b.val = if B = 1 then 0 else b.val
      split_ifs with h1
      · have := b.isLt; omega
      · rfl
    | ⟨2, _⟩ =>
      show (0 : Nat) = if (1 : Nat) = 1 then 0 else c.val
      rfl)]
  exact shapeCast_apply v hc _ (ix2 a b) (by
    rw [Shape.rowMajor_val_two, Shape.rowMajor_val_three]
    show a.val * B + b.val = (a.val * B + b.val) * 1 + 0
    ring)

/-- `v[:, None, :]` broadcast along a new middle axis. -/
theorem bcast_middle_apply {A B C : Nat} (v : (⟨2, ![A, B]⟩ : Shape).Idx → α)
    (hc : (⟨2, ![A, B]⟩ : Shape).ShapeCasts ⟨3, ![A, 1, B]⟩)
    (hb : (⟨3, ![A, 1, B]⟩ : Shape).Broadcasts ⟨3, ![A, C, B]⟩) (a : Fin A) (c : Fin C) (b : Fin B) :
    broadcastTo ⟨3, ![A, C, B]⟩ (shapeCast ⟨3, ![A, 1, B]⟩ v hc) hb (ix3 a c b) = v (ix2 a b) := by
  rw [broadcastTo_apply _ hb (ix3 a c b) (ix3 a (⟨0, Nat.one_pos⟩ : Fin 1) b) (fun d => by
    match d with
    | ⟨0, _⟩ =>
      show a.val = if A = 1 then 0 else a.val
      split_ifs with h1
      · have := a.isLt; omega
      · rfl
    | ⟨1, _⟩ =>
      show (0 : Nat) = if (1 : Nat) = 1 then 0 else c.val
      rfl
    | ⟨2, _⟩ =>
      show b.val = if B = 1 then 0 else b.val
      split_ifs with h1
      · have := b.isLt; omega
      · rfl)]
  exact shapeCast_apply v hc _ (ix2 a b) (by
    rw [Shape.rowMajor_val_two, Shape.rowMajor_val_three]
    show a.val * B + b.val = (a.val * 1 + 0) * B + b.val
    ring)

/-- A vector `[a]` cast to a column `[a, 1]`: entry (i, u) is the vector's entry i. -/
theorem col_of_vec_apply {a : Nat} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to a row `[1, a]`: entry (u, i) is the column's entry (i, 0). -/
theorem row_of_col_apply {a : Nat} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (⟨0, Nat.one_pos⟩ : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-- A column `[a, 1]` broadcast along its unit axis to `[a, b]`: entry (i, j) is the column's entry (i, 0). -/
theorem bcast_col_apply {a b : Nat} (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i (⟨0, Nat.one_pos⟩ : Fin 1)) :=
  broadcastTo_apply x h (ix2 i j) (ix2 i (⟨0, Nat.one_pos⟩ : Fin 1)) (fun d => by
    match d with
    | ⟨0, _⟩ =>
      show i.val = if a = 1 then 0 else i.val
      split_ifs with h1
      · have := i.isLt; omega
      · rfl
    | ⟨1, _⟩ =>
      show (0 : Nat) = if (1 : Nat) = 1 then 0 else j.val
      rfl)

end Cert.LibOuterSum

end
-- ==== Proof.LibRowReduce.lean ====
/-
  Reductions over one axis of rank-2 and rank-3 arrays of extended reals, read at an index as a sum (or a maximum) over
  that axis's coordinate, for arrays of any extents; and a per-row statistic (a row's maximum, a row's sum) laid out as a
  column and repeated along the row, read at an entry. These are the layout steps of a row-wise softmax.
-/
import Idealize.ShloMosaic.PureOps.Ideal.Laws
import Idealize.ShloMosaic.Lib.ValueIdx
import Idealize.ShloMosaic.Lib.Pipeline.Value
import proofs.«108156_j52518860096440_2_alg».proof.Proof.LibOuterSum

noncomputable section

namespace Cert.LibRowReduce

open Idealize.ShloMosaic Idealize.ShloMosaic.ValueIdx

/-- The f32 word `0xFF800000` is `-∞`. -/
theorem ofBits_neg_inf_f32 : Ideal.ofBits .f32 0xFF800000#32 = (⊥ : EReal) := by
  simp [Ideal.ofBits, Ideal.ieee]

/-- Summing a rank-3 array over its last axis: entry (a, b) is the sum over c of the entries (a, b, c). -/
theorem sum_last3 {A B C : Nat} (v : FVec Ideal ⟨3, ![A, B, C]⟩ .f32)
    (h : (⟨3, ![A, B, C]⟩ : Shape).Reduces [2] ⟨2, ![A, B]⟩) (hφ : FKind.Formats FTy.f32)
    (hacc : (0x00000000#32 : BitVec 32) = 0x00000000#32) (a : Fin A) (b : Fin B) :
    multiReduction .add [2] ⟨2, ![A, B]⟩ v 0x00000000#32 h hφ hacc (ix2 a b) = ∑ k : Fin C, v (ix3 a b k) := by
  refine (Ideal.multiReduction_add_single v 0x00000000#32 h hφ hacc (ix2 a b)).trans ?_
  refine Finset.sum_congr rfl fun k _ => congrArg v ?_
  funext c
  apply Fin.ext
  match c with
  | ⟨0, _⟩ => rfl
  | ⟨1, _⟩ => rfl
  | ⟨2, _⟩ => rfl

/-- Summing a rank-3 array over its middle axis: entry (a, c) is the sum over b of the entries (a, b, c). -/
theorem sum_mid3 {A B C : Nat} (v : FVec Ideal ⟨3, ![A, B, C]⟩ .f32)
    (h : (⟨3, ![A, B, C]⟩ : Shape).Reduces [1] ⟨2, ![A, C]⟩) (hφ : FKind.Formats FTy.f32)
    (hacc : (0x00000000#32 : BitVec 32) = 0x00000000#32) (a : Fin A) (c : Fin C) :
    multiReduction .add [1] ⟨2, ![A, C]⟩ v 0x00000000#32 h hφ hacc (ix2 a c) = ∑ k : Fin B, v (ix3 a k c) := by
  refine (Ideal.multiReduction_add_single v 0x00000000#32 h hφ hacc (ix2 a c)).trans ?_
  refine Finset.sum_congr rfl fun k _ => congrArg v ?_
  funext d
  apply Fin.ext
  match d with
  | ⟨0, _⟩ => rfl
  | ⟨1, _⟩ => rfl
  | ⟨2, _⟩ => rfl

/-- Summing a matrix along its rows: entry a is the sum over b of the entries (a, b). -/
theorem sum_row2 {A B : Nat} (v : FVec Ideal ⟨2, ![A, B]⟩ .f32)
    (h : (⟨2, ![A, B]⟩ : Shape).Reduces [1] ⟨1, ![A]⟩) (hφ : FKind.Formats FTy.f32)
    (hacc : (0x00000000#32 : BitVec 32) = 0x00000000#32) (a : Fin A) :
    multiReduction .add [1] ⟨1, ![A]⟩ v 0x00000000#32 h hφ hacc (ix1 a) = ∑ k : Fin B, v (ix2 a k) := by
  refine (Ideal.multiReduction_add_single v 0x00000000#32 h hφ hacc (ix1 a)).trans ?_
  refine Finset.sum_congr rfl fun k _ => congrArg v ?_
  funext d
  apply Fin.ext
  match d with
  | ⟨0, _⟩ => rfl
  | ⟨1, _⟩ => rfl

/-- The maximum along the rows of a matrix, from `-∞`: entry a is the greatest of `-∞` and the entries (a, b). -/
theorem max_row2 {A B : Nat} (v : FVec Ideal ⟨2, ![A, B]⟩ .f32)
    (h : (⟨2, ![A, B]⟩ : Shape).Reduces [1] ⟨1, ![A]⟩) (hφ : FKind.Formats FTy.f32)
    (hacc : (0xFF800000#32 : BitVec 32) = 0xFF800000#32) (a : Fin A) :
    multiReduction .maximumf [1] ⟨1, ![A]⟩ v 0xFF800000#32 h hφ hacc (ix1 a)
      = (Finset.univ : Finset (Fin B)).fold max (⊥ : EReal) (fun k => v (ix2 a k)) := by
  refine (Ideal.multiReduction_maximumf_single v 0xFF800000#32 h hφ hacc (ix1 a)).trans ?_
  show (Finset.univ : Finset (Fin B)).fold max (Ideal.ofBits .f32 0xFF800000#32) _ = _
  rw [ofBits_neg_inf_f32]
  refine congrArg (fun f => (Finset.univ : Finset (Fin B)).fold max (⊥ : EReal) f) ?_
  funext k
  refine congrArg v ?_
  funext d
  apply Fin.ext
  match d with
  | ⟨0, _⟩ => rfl
  | ⟨1, _⟩ => rfl

/-- A per-row statistic `[A]` laid out as a column `[A, 1]` and repeated along the row to `[A, B]`: entry (a, b) is the
    statistic of row a. -/
theorem stat_bcast_apply {α : Type} {A B : Nat} (x : (⟨1, ![A]⟩ : Shape).Idx → α)
    (hc : (⟨1, ![A]⟩ : Shape).ShapeCasts ⟨2, ![A, 1]⟩) (hb : (⟨2, ![A, 1]⟩ : Shape).Broadcasts ⟨2, ![A, B]⟩)
    (a : Fin A) (b : Fin B) :
    broadcastTo ⟨2, ![A, B]⟩ (shapeCast ⟨2, ![A, 1]⟩ x hc) hb (ix2 a b) = x (ix1 a) := by
  rw [Cert.LibOuterSum.bcast_col_apply, Cert.LibOuterSum.col_of_vec_apply]

end Cert.LibRowReduce

end
-- ==== Proof.LibMaxLast.lean ====
/-
  The maximum over the last axis, from a given starting word, read at an index as a `Finset` fold of `max` over that
  axis's coordinate: a kernel's `vector.multi_reduction <maximumf>` over the last axis of a rank-3 array, and the host's
  `stablehlo.reduce` with a maximum body over the last axis of a rank-4 array. The starting value is left as the word
  both programs print (`Ideal.ofBits .f32 0xFF800000`, which is `-∞`), so the two sides meet without evaluating it.
  Generic in the extents.
-/
import Idealize.ShloMosaic.PureOps.Ideal.Laws
import Idealize.ShloMosaic.PureOps.Reduce
import Idealize.ShloMosaic.Lib.ValueIdx

noncomputable section

namespace Cert.LibMaxLast

open Idealize.ShloMosaic Idealize.ShloMosaic.ValueIdx

/-- A kernel's maximum over the last axis of a rank-3 array: entry (a, b) is the greatest of the starting word and the
    entries (a, b, k). -/
theorem max_last3 {A B C : Nat} (v : FVec Ideal ⟨3, ![A, B, C]⟩ .f32)
    (h : (⟨3, ![A, B, C]⟩ : Shape).Reduces [2] ⟨2, ![A, B]⟩) (hφ : FKind.Formats FTy.f32)
    (hacc : (0xFF800000#32 : BitVec 32) = 0xFF800000#32) (a : Fin A) (b : Fin B) :
    multiReduction .maximumf [2] ⟨2, ![A, B]⟩ v 0xFF800000#32 h hφ hacc (ix2 a b)
      = (Finset.univ : Finset (Fin C)).fold max (Ideal.ofBits .f32 0xFF800000#32) (fun k => v (ix3 a b k)) := by
  refine (Ideal.multiReduction_maximumf_single v 0xFF800000#32 h hφ hacc (ix2 a b)).trans ?_
  show (Finset.univ : Finset (Fin C)).fold max (Ideal.ofBits .f32 0xFF800000#32) _ = _
  refine congrArg (fun f => (Finset.univ : Finset (Fin C)).fold max (Ideal.ofBits .f32 0xFF800000#32) f) ?_
  funext k
  refine congrArg v ?_
  funext d
  apply Fin.ext
  match d with
  | ⟨0, _⟩ => rfl
  | ⟨1, _⟩ => rfl
  | ⟨2, _⟩ => rfl

/-- The host's maximum over the last axis of a rank-4 array from a rank-0 initial value: entry (a, b, c) is the greatest
    of the initial value and the entries (a, b, c, k). -/
theorem hostMax_last4 {A B C D : Nat} (x : FVec Ideal ⟨4, ![A, B, C, D]⟩ .f32) (init : (⟨0, ![]⟩ : Shape).Idx → Ideal .f32)
    (h' : (⟨4, ![A, B, C, D]⟩ : Shape).ReducesTo [3] ⟨3, ![A, B, C]⟩)
    (h : (⟨4, ![A, B, C, D]⟩ : Shape).Reduces [3] ⟨3, ![A, B, C]⟩) (hu : 0 < (⟨0, ![]⟩ : Shape).numel)
    (a : Fin A) (b : Fin B) (c : Fin C) :
    Host.reduce FloatOps.maximumf x init h' hu (ix3 a b c)
      = (Finset.univ : Finset (Fin D)).fold max (init (Shape.Idx.first hu)) (fun k => x (ix4 a b c k)) := by
  rw [Host.reduce_eq_fold_single FloatOps.maximumf x init h' h hu]
  show (Finset.univ : Finset (Fin D)).fold max (init (Shape.Idx.first hu)) _ = _
  refine congrArg (fun f => (Finset.univ : Finset (Fin D)).fold max (init (Shape.Idx.first hu)) f) ?_
  funext k
  refine congrArg x ?_
  funext d
  apply Fin.ext
  match d with
  | ⟨0, _⟩ => rfl
  | ⟨1, _⟩ => rfl
  | ⟨2, _⟩ => rfl
  | ⟨3, _⟩ => rfl

end Cert.LibMaxLast

end
-- ==== Proof.KernelTile.lean ====
/-
  The kernel's body on one tile of 128 tokens, read at an index.

  The body's arithmetic is one composed term: the tile's 128 × 1024 inputs times the 1024 × 3072 weights plus the bias row
  (`rows`), the three thirds of the 3072 columns reshaped to 16 heads of 64 lanes (`heads`), the 16 × 16 score table of
  every token — query heads against key heads over the lanes, scaled and masked (`scores`) —, its row-wise softmax
  (`rowMaxes`, `expos`, `weights`; a per-row statistic is laid out as a column and repeated along the row, `spread`),
  and the weights applied to the value heads, the heads laid side by side again (`outTile`). Each stage at an index is the
  corresponding expression of `HeadMix` over the tile's entries, so entry `(p, c)` of the result is output lane
  `(c / 64, c % 64)` of token `p` (`pay_apply`).
-/
import proofs.«108156_j52518860096440_2_alg».proof.Proof.Gen.KernelIdeal.Skeleton
import proofs.«108156_j52518860096440_2_alg».proof.Proof.HeadMix
import proofs.«108156_j52518860096440_2_alg».proof.Proof.LibBatchDot
import proofs.«108156_j52518860096440_2_alg».proof.Proof.LibBatchDotInner
import proofs.«108156_j52518860096440_2_alg».proof.Proof.LibDotSum
import proofs.«108156_j52518860096440_2_alg».proof.Proof.LibRowReduce
import proofs.«108156_j52518860096440_2_alg».proof.Proof.LibMaxLast
import Idealize.ShloMosaic.Lib.Pipeline.Value
import Idealize.ShloMosaic.PureOps.Ideal.Laws
import Idealize.ShloMosaic.Lib.ValueIdx

noncomputable section

namespace Cert.KernelIdeal.Tile

open Cert.KernelIdeal Cert.KernelIdeal.Gen Idealize.ShloMosaic Idealize.ShloMosaic.ValueIdx
open Cert.HeadMix

/-! ## The stages -/

/-- The tile's projected rows: inputs times weights, plus the bias row repeated over the 128 tokens. -/
def rows (P0 : Vec Ideal S1x128x1024 .f32) (P1 : Vec Ideal S1024x3072 .bf16) (P2 : Vec Ideal S1x3072 .f32) : FVec Ideal S128x3072 .f32 :=
  addf (matmul dot_S128x1024_S1024x3072_S128x3072_1_0_0_1_n_n none
      (truncf .bf16 (shapeCast S128x1024 P0 shapeCasts_S1x128x1024_S128x1024 : FVec Ideal S128x1024 .f32) bitsLt_bf16_f32)
      (shapeCast S1024x3072 P1 shapeCasts_S1024x3072_S1024x3072 : FVec Ideal S1024x3072 .bf16) (constant S128x3072 .f32 0x00000000#32))
    (broadcastTo S128x3072 (shapeCast S1x3072 P2 shapeCasts_S1x3072_S1x3072 : FVec Ideal S1x3072 .f32) broadcasts_S1x3072_S128x3072)

/-- The third of the rows starting at column `off`, as 16 heads of 64 lanes per token. -/
def heads (off : Nat) (hs : S128x3072.Slices ![0, off] S128x1024) (v9 : FVec Ideal S128x3072 .f32) : FVec Ideal S128x16x64 .f32 :=
  shapeCast S128x16x64 (extractStridedSlice S128x1024 ![0, off] v9 hs) shapeCasts_S128x1024_S128x16x64

/-- Every token's score table. -/
def scores (v11 v13 : FVec Ideal S128x16x64 .f32) (P3 : Vec Ideal S1x128x16x16 .f32) : FVec Ideal S128x16x16 .f32 :=
  addf (mulf (matmul dot_S128x16x64_S128x16x64_S128x16x16_2_2_1_1_0_0 none v11 v13 (constant S128x16x16 .f32 0x00000000#32))
      (broadcast S128x16x16 (Scalar.ofBits .f32 0x3E000000#32)))
    (shapeCast S128x16x16 P3 shapeCasts_S1x128x16x16_S128x16x16 : FVec Ideal S128x16x16 .f32)

/-- A per-row statistic as a column, repeated along the row. -/
def spread (s : FVec Ideal S128x16 .f32) : FVec Ideal S128x16x16 .f32 :=
  broadcastTo S128x16x16 (shapeCast S128x16x1 s shapeCasts_S128x16_S128x16x1) broadcasts_S128x16x1_S128x16x16

/-- Each row's maximum. -/
def rowMaxes (v21 : FVec Ideal S128x16x16 .f32) : FVec Ideal S128x16 .f32 :=
  maximumf (broadcast S128x16 (Scalar.ofBits .f32 0xFF800000#32))
    (multiReduction .maximumf [2] S128x16 v21 0xFF800000#32 reduces_S128x16x16_S128x16 (.inl rfl) rfl)

/-- The exponentials of the entries less their row's maximum. -/
def expos (v21 : FVec Ideal S128x16x16 .f32) : FVec Ideal S128x16x16 .f32 := exp (subf v21 (spread (rowMaxes v21)))

/-- The softmax weights. -/
def weights (v21 : FVec Ideal S128x16x16 .f32) : FVec Ideal S128x16x16 .f32 :=
  divf (expos v21) (spread (multiReduction .add [2] S128x16 (expos v21) 0x00000000#32 reduces_S128x16x16_S128x16 (.inl rfl) rfl))

/-- The weights applied to the value heads, the heads side by side. -/
def outTile (v32 : FVec Ideal S128x16x16 .f32) (v15 : FVec Ideal S128x16x64 .f32) : FVec Ideal S128x1024 .f32 :=
  shapeCast S128x1024 (matmul dot_S128x16x16_S128x16x64_S128x16x64_2_1_1_2_0_0 none v32 v15 (constant S128x16x64 .f32 0x00000000#32))
    shapeCasts_S128x16x64_S128x1024

/-- The body's arithmetic is the composition of the stages. -/
theorem pay_eq (P0 : Vec Ideal S1x128x1024 .f32) (P1 : Vec Ideal S1024x3072 .bf16) (P2 : Vec Ideal S1x3072 .f32) (P3 : Vec Ideal S1x128x16x16 .f32) :
    k0_pay2 (F := Ideal) P0 P1 P2 P3
      = outTile (weights (scores (heads 0 slices_S128x3072_o0_0_S128x1024 (rows P0 P1 P2))
            (heads 1024 slices_S128x3072_o0_1024_S128x1024 (rows P0 P1 P2)) P3))
          (heads 2048 slices_S128x3072_o0_2048_S128x1024 (rows P0 P1 P2)) := rfl

/-! ## The coordinates of the three products -/

theorem d1_l0 (j : S128x3072.Idx) (k : (dot_S128x1024_S1024x3072_S128x3072_1_0_0_1_n_n).contr.Idx) : ((dot_S128x1024_S1024x3072_S128x3072_1_0_0_1_n_n).lhsIdx j k 0).val = (j 0).val := by
  unfold DotDims.lhsIdx
  rw [dif_neg (show ¬(0 : Fin S128x1024.rank) ∈ (dot_S128x1024_S1024x3072_S128x3072_1_0_0_1_n_n).lhsBatch by decide), dif_pos (show (0 : Fin S128x1024.rank) ∈ (dot_S128x1024_S1024x3072_S128x3072_1_0_0_1_n_n).lhsNonContracting by decide)]
  rfl
theorem d1_l1 (j : S128x3072.Idx) (k : (dot_S128x1024_S1024x3072_S128x3072_1_0_0_1_n_n).contr.Idx) : ((dot_S128x1024_S1024x3072_S128x3072_1_0_0_1_n_n).lhsIdx j k 1).val = (k ⟨0, by decide⟩).val :=
  (dot_S128x1024_S1024x3072_S128x3072_1_0_0_1_n_n).lhsIdx_val_of_single rfl j k
theorem d1_r0 (j : S128x3072.Idx) (k : (dot_S128x1024_S1024x3072_S128x3072_1_0_0_1_n_n).contr.Idx) : ((dot_S128x1024_S1024x3072_S128x3072_1_0_0_1_n_n).rhsIdx j k 0).val = (k ⟨0, by decide⟩).val :=
  (dot_S128x1024_S1024x3072_S128x3072_1_0_0_1_n_n).rhsIdx_val_of_single rfl j k
theorem d1_r1 (j : S128x3072.Idx) (k : (dot_S128x1024_S1024x3072_S128x3072_1_0_0_1_n_n).contr.Idx) : ((dot_S128x1024_S1024x3072_S128x3072_1_0_0_1_n_n).rhsIdx j k 1).val = (j 1).val := by
  unfold DotDims.rhsIdx
  rw [dif_neg (show ¬(1 : Fin S1024x3072.rank) ∈ (dot_S128x1024_S1024x3072_S128x3072_1_0_0_1_n_n).rhsBatch by decide), dif_pos (show (1 : Fin S1024x3072.rank) ∈ (dot_S128x1024_S1024x3072_S128x3072_1_0_0_1_n_n).rhsNonContracting by decide)]
  rfl

theorem d2_l0 (i : S128x16x16.Idx) (q : (dot_S128x16x64_S128x16x64_S128x16x16_2_2_1_1_0_0).contr.Idx) : ((dot_S128x16x64_S128x16x64_S128x16x16_2_2_1_1_0_0).lhsIdx i q 0).val = (i 0).val := by
  unfold DotDims.lhsIdx
  rw [dif_pos (show (0 : Fin S128x16x64.rank) ∈ (dot_S128x16x64_S128x16x64_S128x16x16_2_2_1_1_0_0).lhsBatch by decide)]
  rfl
theorem d2_l1 (i : S128x16x16.Idx) (q : (dot_S128x16x64_S128x16x64_S128x16x16_2_2_1_1_0_0).contr.Idx) : ((dot_S128x16x64_S128x16x64_S128x16x16_2_2_1_1_0_0).lhsIdx i q 1).val = (i 1).val := by
  unfold DotDims.lhsIdx
  rw [dif_neg (show ¬(1 : Fin S128x16x64.rank) ∈ (dot_S128x16x64_S128x16x64_S128x16x16_2_2_1_1_0_0).lhsBatch by decide), dif_pos (show (1 : Fin S128x16x64.rank) ∈ (dot_S128x16x64_S128x16x64_S128x16x16_2_2_1_1_0_0).lhsNonContracting by decide)]
  rfl
theorem d2_l2 (i : S128x16x16.Idx) (q : (dot_S128x16x64_S128x16x64_S128x16x16_2_2_1_1_0_0).contr.Idx) : ((dot_S128x16x64_S128x16x64_S128x16x16_2_2_1_1_0_0).lhsIdx i q 2).val = (q ⟨0, by decide⟩).val :=
  (dot_S128x16x64_S128x16x64_S128x16x16_2_2_1_1_0_0).lhsIdx_val_of_single rfl i q
theorem d2_r0 (i : S128x16x16.Idx) (q : (dot_S128x16x64_S128x16x64_S128x16x16_2_2_1_1_0_0).contr.Idx) : ((dot_S128x16x64_S128x16x64_S128x16x16_2_2_1_1_0_0).rhsIdx i q 0).val = (i 0).val := by
  unfold DotDims.rhsIdx
  rw [dif_pos (show (0 : Fin S128x16x64.rank) ∈ (dot_S128x16x64_S128x16x64_S128x16x16_2_2_1_1_0_0).rhsBatch by decide)]
  rfl
theorem d2_r1 (i : S128x16x16.Idx) (q : (dot_S128x16x64_S128x16x64_S128x16x16_2_2_1_1_0_0).contr.Idx) : ((dot_S128x16x64_S128x16x64_S128x16x16_2_2_1_1_0_0).rhsIdx i q 1).val = (i 2).val := by
  unfold DotDims.rhsIdx
  rw [dif_neg (show ¬(1 : Fin S128x16x64.rank) ∈ (dot_S128x16x64_S128x16x64_S128x16x16_2_2_1_1_0_0).rhsBatch by decide), dif_pos (show (1 : Fin S128x16x64.rank) ∈ (dot_S128x16x64_S128x16x64_S128x16x16_2_2_1_1_0_0).rhsNonContracting by decide)]
  rfl
theorem d2_r2 (i : S128x16x16.Idx) (q : (dot_S128x16x64_S128x16x64_S128x16x16_2_2_1_1_0_0).contr.Idx) : ((dot_S128x16x64_S128x16x64_S128x16x16_2_2_1_1_0_0).rhsIdx i q 2).val = (q ⟨0, by decide⟩).val :=
  (dot_S128x16x64_S128x16x64_S128x16x16_2_2_1_1_0_0).rhsIdx_val_of_single rfl i q

theorem d3_l0 (i : S128x16x64.Idx) (q : (dot_S128x16x16_S128x16x64_S128x16x64_2_1_1_2_0_0).contr.Idx) : ((dot_S128x16x16_S128x16x64_S128x16x64_2_1_1_2_0_0).lhsIdx i q 0).val = (i 0).val := by
  unfold DotDims.lhsIdx
  rw [dif_pos (show (0 : Fin S128x16x16.rank) ∈ (dot_S128x16x16_S128x16x64_S128x16x64_2_1_1_2_0_0).lhsBatch by decide)]
  rfl
theorem d3_l1 (i : S128x16x64.Idx) (q : (dot_S128x16x16_S128x16x64_S128x16x64_2_1_1_2_0_0).contr.Idx) : ((dot_S128x16x16_S128x16x64_S128x16x64_2_1_1_2_0_0).lhsIdx i q 1).val = (i 1).val := by
  unfold DotDims.lhsIdx
  rw [dif_neg (show ¬(1 : Fin S128x16x16.rank) ∈ (dot_S128x16x16_S128x16x64_S128x16x64_2_1_1_2_0_0).lhsBatch by decide), dif_pos (show (1 : Fin S128x16x16.rank) ∈ (dot_S128x16x16_S128x16x64_S128x16x64_2_1_1_2_0_0).lhsNonContracting by decide)]
  rfl
theorem d3_l2 (i : S128x16x64.Idx) (q : (dot_S128x16x16_S128x16x64_S128x16x64_2_1_1_2_0_0).contr.Idx) : ((dot_S128x16x16_S128x16x64_S128x16x64_2_1_1_2_0_0).lhsIdx i q 2).val = (q ⟨0, by decide⟩).val :=
  (dot_S128x16x16_S128x16x64_S128x16x64_2_1_1_2_0_0).lhsIdx_val_of_single rfl i q
theorem d3_r0 (i : S128x16x64.Idx) (q : (dot_S128x16x16_S128x16x64_S128x16x64_2_1_1_2_0_0).contr.Idx) : ((dot_S128x16x16_S128x16x64_S128x16x64_2_1_1_2_0_0).rhsIdx i q 0).val = (i 0).val := by
  unfold DotDims.rhsIdx
  rw [dif_pos (show (0 : Fin S128x16x64.rank) ∈ (dot_S128x16x16_S128x16x64_S128x16x64_2_1_1_2_0_0).rhsBatch by decide)]
  rfl
theorem d3_r1 (i : S128x16x64.Idx) (q : (dot_S128x16x16_S128x16x64_S128x16x64_2_1_1_2_0_0).contr.Idx) : ((dot_S128x16x16_S128x16x64_S128x16x64_2_1_1_2_0_0).rhsIdx i q 1).val = (q ⟨0, by decide⟩).val :=
  (dot_S128x16x16_S128x16x64_S128x16x64_2_1_1_2_0_0).rhsIdx_val_of_single rfl i q
theorem d3_r2 (i : S128x16x64.Idx) (q : (dot_S128x16x16_S128x16x64_S128x16x64_2_1_1_2_0_0).contr.Idx) : ((dot_S128x16x16_S128x16x64_S128x16x64_2_1_1_2_0_0).rhsIdx i q 2).val = (i 2).val := by
  unfold DotDims.rhsIdx
  rw [dif_neg (show ¬(2 : Fin S128x16x64.rank) ∈ (dot_S128x16x16_S128x16x64_S128x16x64_2_1_1_2_0_0).rhsBatch by decide), dif_pos (show (2 : Fin S128x16x64.rank) ∈ (dot_S128x16x16_S128x16x64_S128x16x64_2_1_1_2_0_0).rhsNonContracting by decide)]
  rfl

/-! ## Each stage at an index -/

/-- Row `p`, column `o` of the projected tile: token `p`'s inputs against weight column `o`, plus bias entry `o`. -/
theorem rows_apply (P0 : Vec Ideal S1x128x1024 .f32) (P1 : Vec Ideal S1024x3072 .bf16) (P2 : Vec Ideal S1x3072 .f32) (p : Fin 128) (o : Fin 3072) :
    rows P0 P1 P2 (ix2 p o)
      = proj (fun k => P0 (ix3 (0 : Fin 1) p k)) (fun o k => P1 (ix2 k o)) (fun o => P2 (ix2 (0 : Fin 1) o)) o := by
  unfold rows proj
  rw [addf_apply]
  congr 1
  · show FloatOps.matmul _ none _ _ (constant S128x3072 .f32 0x00000000#32) (ix2 p o) = _
    rw [Ideal.matmul_constant_zero_apply, Cert.LibDotSum.sum_dot (dot_S128x1024_S1024x3072_S128x3072_1_0_0_1_n_n) rfl rfl d1_l0 d1_l1 d1_r0 d1_r1]
    refine Finset.sum_congr rfl fun k _ => ?_
    congr 1
    · exact shapeCast_apply P0 shapeCasts_S1x128x1024_S128x1024 (ix2 p k) (ix3 (0 : Fin 1) p k) (by
        rw [Shape.rowMajor_val_three, Shape.rowMajor_val_two]
        show (0 * 128 + p.val) * 1024 + k.val = p.val * 1024 + k.val
        omega)
    · rw [shapeCast_self]
  · rw [shapeCast_self]
    exact broadcastTo_apply P2 broadcasts_S1x3072_S128x3072 (ix2 p o) (ix2 (0 : Fin 1) o) (fun a => by
      match a with
      | ⟨0, _⟩ => show (0 : Nat) = if (1 : Nat) = 1 then 0 else p.val; rfl
      | ⟨1, _⟩ => show o.val = if (3072 : Nat) = 1 then 0 else o.val; rw [if_neg (by decide)])

/-- Lane `d` of head `h` of token `p` in the third starting at `off` is column `off + 64 h + d` of the token's row. -/
theorem heads_apply (off : Nat) (hoff : off + 1024 ≤ 3072) (hs : S128x3072.Slices ![0, off] S128x1024) (v9 : FVec Ideal S128x3072 .f32)
    (p : Fin 128) (h : Fin 16) (d : Fin 64) :
    heads off hs v9 (ix3 p h d) = v9 (ix2 p (col off hoff h d)) := by
  have hh := h.isLt
  have hd := d.isLt
  unfold heads
  refine (shapeCast_apply _ shapeCasts_S128x1024_S128x16x64 (ix3 p h d) (ix2 p (⟨h.val * 64 + d.val, by omega⟩ : Fin 1024)) (by
    rw [Shape.rowMajor_val_two, Shape.rowMajor_val_three]
    show p.val * 1024 + (h.val * 64 + d.val) = (p.val * 16 + h.val) * 64 + d.val
    omega)).trans ?_
  exact extractStridedSlice_apply _ v9 hs _ (ix2 p (col off hoff h d)) (fun a => by
    match a with
    | ⟨0, _⟩ => show p.val = 0 + p.val; omega
    | ⟨1, _⟩ => show off + (h.val * 64 + d.val) = off + (h.val * 64 + d.val); rfl)

/-- Entry `(h, g)` of token `p`'s score table. -/
theorem scores_apply (v11 v13 : FVec Ideal S128x16x64 .f32) (P3 : Vec Ideal S1x128x16x16 .f32) (p : Fin 128) (h g : Fin 16) :
    scores v11 v13 P3 (ix3 p h g)
      = (∑ d : Fin 64, v11 (ix3 p h d) * v13 (ix3 p g d)) * Ideal.ofBits .f32 0x3E000000#32 + P3 (ix4 (0 : Fin 1) p h g) := by
  unfold scores
  rw [addf_apply, mulf_apply]
  show FloatOps.matmul _ none v11 v13 (constant S128x16x16 .f32 0x00000000#32) (ix3 p h g) * _ + _ = _
  rw [Cert.LibBatchDot.matmul_zero_apply (dot_S128x16x64_S128x16x64_S128x16x16_2_2_1_1_0_0) none rfl rfl d2_l0 d2_l1 d2_l2 d2_r0 d2_r1 d2_r2 v11 v13 p h g]
  congr 1
  exact shapeCast_apply P3 shapeCasts_S1x128x16x16_S128x16x16 (ix3 p h g) (ix4 (0 : Fin 1) p h g) (by
    rw [Shape.rowMajor_val_four, Shape.rowMajor_val_three]
    show ((0 * 128 + p.val) * 16 + h.val) * 16 + g.val = (p.val * 16 + h.val) * 16 + g.val
    omega)

/-- A spread statistic at `(p, h, g)` is the statistic of row `(p, h)`. -/
theorem spread_apply (s : FVec Ideal S128x16 .f32) (p : Fin 128) (h g : Fin 16) : spread s (ix3 p h g) = s (ix2 p h) :=
  Cert.LibOuterSum.bcast_trailing_apply s shapeCasts_S128x16_S128x16x1 broadcasts_S128x16x1_S128x16x16 p h g

/-- The maximum of row `h` of token `p`'s table. -/
theorem rowMaxes_apply (v21 : FVec Ideal S128x16x16 .f32) (p : Fin 128) (h : Fin 16) :
    rowMaxes v21 (ix2 p h) = rowMax (fun h g => v21 (ix3 p h g)) h := by
  unfold rowMaxes rowMax
  rw [maximumf_apply, Cert.LibMaxLast.max_last3 v21 reduces_S128x16x16_S128x16 (.inl rfl) rfl p h]
  rfl

theorem expos_apply (v21 : FVec Ideal S128x16x16 .f32) (p : Fin 128) (h g : Fin 16) :
    expos v21 (ix3 p h g) = expo (fun h g => v21 (ix3 p h g)) h g := by
  unfold expos expo
  show Ideal.exp (v21 (ix3 p h g) - spread (rowMaxes v21) (ix3 p h g)) = _
  rw [spread_apply, rowMaxes_apply]

theorem weights_apply (v21 : FVec Ideal S128x16x16 .f32) (p : Fin 128) (h g : Fin 16) :
    weights v21 (ix3 p h g) = weight (fun h g => v21 (ix3 p h g)) h g := by
  have hs : multiReduction .add [2] S128x16 (expos v21) 0x00000000#32 reduces_S128x16x16_S128x16 (.inl rfl) rfl (ix2 p h)
      = ∑ g' : Fin 16, expo (fun h g => v21 (ix3 p h g)) h g' :=
    (Cert.LibRowReduce.sum_last3 (expos v21) reduces_S128x16x16_S128x16 (.inl rfl) rfl p h).trans
      (Finset.sum_congr rfl fun g' _ => expos_apply v21 p h g')
  unfold weights weight
  show Ideal.div (expos v21 (ix3 p h g)) (spread _ (ix3 p h g)) = _
  rw [spread_apply, hs, expos_apply]

/-- Entry `(p, c)` of the output tile: the weights of row `c / 64` against lane `c % 64` of the value heads. -/
theorem outTile_apply (v32 : FVec Ideal S128x16x16 .f32) (v15 : FVec Ideal S128x16x64 .f32) (p : Fin 128) (c : Fin 1024) :
    outTile v32 v15 (ix2 p c) = ∑ g : Fin 16, v32 (ix3 p (headOf c) g) * v15 (ix3 p g (laneOf c)) := by
  have hc := c.isLt
  unfold outTile
  refine (shapeCast_apply _ shapeCasts_S128x16x64_S128x1024 (ix2 p c) (ix3 p (headOf c) (laneOf c)) (by
    rw [Shape.rowMajor_val_three, Shape.rowMajor_val_two]
    show (p.val * 16 + c.val / 64) * 64 + c.val % 64 = p.val * 1024 + c.val
    omega)).trans ?_
  show FloatOps.matmul _ none v32 v15 (constant S128x16x64 .f32 0x00000000#32) (ix3 p (headOf c) (laneOf c)) = _
  exact Cert.LibBatchDotInner.matmul_zero_apply (dot_S128x16x16_S128x16x64_S128x16x64_2_1_1_2_0_0) none rfl rfl d3_l0 d3_l1 d3_l2 d3_r0 d3_r1 d3_r2 v32 v15 p (headOf c) (laneOf c)

/-! ## The body at an index -/

/-- Entry `(p, c)` of what the body computes from its four loaded blocks: output lane `(c / 64, c % 64)` of the token whose
    inputs are row `p` of the first block and whose mask table is slice `p` of the fourth, under the weights of the second
    block (one column per output) and the bias row of the third. -/
theorem pay_apply (P0 : Vec Ideal S1x128x1024 .f32) (P1 : Vec Ideal S1024x3072 .bf16) (P2 : Vec Ideal S1x3072 .f32) (P3 : Vec Ideal S1x128x16x16 .f32)
    (p : Fin 128) (c : Fin 1024) :
    k0_pay2 (F := Ideal) P0 P1 P2 P3 (ix2 p c)
      = mix (proj (fun k => P0 (ix3 (0 : Fin 1) p k)) (fun o k => P1 (ix2 k o)) (fun o => P2 (ix2 (0 : Fin 1) o)))
          (fun h g => P3 (ix4 (0 : Fin 1) p h g)) (headOf c) (laneOf c) := by
  rw [pay_eq, outTile_apply]
  unfold mix
  refine Finset.sum_congr rfl fun g _ => ?_
  rw [weights_apply, heads_apply 2048 (by decide), rows_apply]
  congr 2
  funext h' g'
  rw [scores_apply]
  unfold score
  congr 2
  refine Finset.sum_congr rfl fun d _ => ?_
  rw [heads_apply 0 (by decide), heads_apply 1024 (by decide), rows_apply, rows_apply]

end Cert.KernelIdeal.Tile

end
-- ==== Proof.KernelArray.lean ====
/-
  From the kernel's tiles to its whole result array.

  The grid has 4 × 32 points; point `(b, j)` reads rows `128 j … 128 j + 127` of batch `b` of the inputs and of the mask
  tables, the whole weight matrix and the bias row, and writes the same rows of batch `b` of the result. The weights the
  body sees are the argument's transpose (the host lays them out column-major first, and the change of format is the
  identity on the extended reals) and the bias row is the bias vector as a one-row matrix. So what point `(b, j)` writes back is
  its block of `HeadMix.attend` of the four arguments (`flushed_eq`); the blocks tile the result array (`cover`); and the array
  after the run is `attend` of the arguments (`final`, `run`).
-/
import proofs.«108156_j52518860096440_2_alg».proof.Proof.Gen.KernelIdeal.Value
import proofs.«108156_j52518860096440_2_alg».proof.Proof.KernelTile
import Idealize.ShloMosaic.Lib.Pipeline.Value
import Idealize.ShloMosaic.Lib.StableHlo.Run
import Idealize.ShloMosaic.Lib.Tactic

noncomputable section

namespace Cert.KernelIdeal.Whole

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.HeadMix

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## What the body leaves in the output block, entry by entry -/

/-- Entry `y` of the block the body leaves, from the four input blocks: output lane `(y₂ / 64, y₂ % 64)` of the token in
    row `y₁`. -/
theorem tile_entry (x0 : Vec Ideal S1x128x1024 .f32) (x1 : Vec Ideal S1x128x16x16 .f32) (x2 : Vec Ideal S1024x3072 .bf16)
    (x3 : Vec Ideal S1x3072 .f32) (y : S1x128x1024.Idx) :
    out0_4 x0 x1 x2 x3 y
      = mix (proj (fun k => x0 (ix3 (0 : Fin 1) (y 1) k)) (fun o k => x2 (ix2 k o)) (fun o => x3 (ix2 (0 : Fin 1) o)))
          (fun h g => x1 (ix4 (0 : Fin 1) (y 1) h g)) (headOf (y 2)) (laneOf (y 2)) := by
  unfold out0_4
  rw [View.ld_unit_zero (S := S1x128x1024) hz3, View.ld_unit_zero (S := S1024x3072) hz2, View.ld_unit_zero (S := S1x3072) hz2,
    View.ld_unit_zero (S := S1x128x16x16) hz4, Cert.KernelIdeal.Value.canon4_eq]
  show k0_pay2 x0 x2 x3 x1 (Cert.KernelIdeal.Value.ix4_0 y) = _
  have e : Cert.KernelIdeal.Value.ix4_0 y = ix2 (y 1) (y 2) := funext fun a => Fin.ext (by
    match a with
    | ⟨0, _⟩ => rfl
    | ⟨1, _⟩ => rfl)
  rw [e]
  exact Cert.KernelIdeal.Tile.pay_apply x0 x2 x3 x1 (y 1) (y 2)

/-! ## The operands the host prepares -/

/-- The weights as the region finds them: the argument transposed. -/
theorem V_weights (c : Dev nD) :
    @Eq (S1024x3072.Idx → EReal) (V m c main_v1)
      (truncf (F := Ideal) .bf16 (transpose S1024x3072 [1, 0] (m ((c : Thread nD τ).loc main_arg4) : S3072x1024.Idx → EReal)
        transposes_S3072x1024_S1024x3072_1_0) bitsLt_bf16_f32) := by
  dsimp only [Gen.V, Gen.hostOps0]
  after_results
  all_goals rfl

/-- Entry `(k, o)` of those weights is entry `(o, k)` of the argument. -/
theorem V_weights_at (c : Dev nD) (k : Fin 1024) (o : Fin 3072) :
    (V m c main_v1 : S1024x3072.Idx → EReal) (ix2 k o) = (m ((c : Thread nD τ).loc main_arg4) : S3072x1024.Idx → EReal) (ix2 o k) := by
  rw [V_weights]
  exact transpose_apply [1, 0] _ transposes_S3072x1024_S1024x3072_1_0 (ix2 k o) (ix2 o k) (fun b => by
    match b with
    | ⟨0, _⟩ => rfl
    | ⟨1, _⟩ => rfl)

/-- The bias row as the region finds it: the bias vector as a one-row matrix. -/
theorem V_bias (c : Dev nD) :
    @Eq (S1x3072.Idx → EReal) (V m c main_v2)
      (shapeCast S1x3072 (m ((c : Thread nD τ).loc main_arg5) : S3072.Idx → EReal) shapeCasts_S3072_S1x3072) := by
  dsimp only [Gen.V, Gen.hostOps0]
  after_results
  all_goals rfl

theorem V_bias_at (c : Dev nD) (o : Fin 3072) :
    (V m c main_v2 : S1x3072.Idx → EReal) (ix2 (0 : Fin 1) o) = (m ((c : Thread nD τ).loc main_arg5) : S3072.Idx → EReal) (ix1 o) := by
  rw [V_bias]
  exact shapeCast_apply _ shapeCasts_S3072_S1x3072 (ix2 (0 : Fin 1) o) (ix1 o) (by
    rw [Shape.rowMajor_val_one, Shape.rowMajor_val_two]
    show o.val = 0 * 3072 + o.val
    omega)

/-! ## The index maps, decided over the grid -/

theorem idx_facts : ∀ t : Fin cfg0.N,
    win0_0.index t (0 : Fin 3) = win0_4.index t (0 : Fin 3) ∧ win0_0.index t (1 : Fin 3) = win0_4.index t (1 : Fin 3)
    ∧ win0_0.index t (2 : Fin 3) = 0
    ∧ win0_1.index t (0 : Fin 4) = win0_4.index t (0 : Fin 3) ∧ win0_1.index t (1 : Fin 4) = win0_4.index t (1 : Fin 3)
    ∧ win0_1.index t (2 : Fin 4) = 0 ∧ win0_1.index t (3 : Fin 4) = 0
    ∧ win0_2.index t (0 : Fin 2) = 0 ∧ win0_2.index t (1 : Fin 2) = 0
    ∧ win0_3.index t (0 : Fin 2) = 0 ∧ win0_3.index t (1 : Fin 2) = 0
    ∧ win0_4.index t (2 : Fin 3) = 0 ∧ win0_4.index t (0 : Fin 3) ≤ 3 ∧ win0_4.index t (1 : Fin 3) ≤ 31 :=
  (by decide +kernel : ∀ t : Fin grid0.N, _)

/-- Every block of the result array is some point's. -/
theorem idx_onto : ∀ (q0 : Fin 4) (q1 : Fin 32), ∃ t : Fin cfg0.N, win0_4.index t = ![q0.val, q1.val, 0] :=
  (by decide +kernel : ∀ (q0 : Fin 4) (q1 : Fin 32), ∃ t : Fin grid0.N, win0_4.index t = ![q0.val, q1.val, 0])

/-! ## What a point writes back -/

/-- The result: head mixing of every token of the arguments. -/
abbrev result (c : Dev nD) : S4x4096x1024.Idx → EReal :=
  attend (m ((c : Thread nD τ).loc main_arg0)) (m ((c : Thread nD τ).loc main_arg3)) (m ((c : Thread nD τ).loc main_arg4))
    (m ((c : Thread nD τ).loc main_arg5))

theorem mix_congr {r r' : Fin 3072 → EReal} {μ μ' : Fin 16 → Fin 16 → EReal} {h h' : Fin 16} {d d' : Fin 64}
    (hr : r = r') (hμ : μ = μ') (hh : h = h') (hd : d = d') : mix r μ h d = mix r' μ' h' d' := by
  subst hr hμ hh hd; rfl

theorem proj_congr {x x' : Fin 1024 → EReal} {W W' : Fin 3072 → Fin 1024 → EReal} {β β' : Fin 3072 → EReal}
    (hx : x = x') (hW : W = W') (hβ : β = β') : proj x W β = proj x' W' β' := by
  subst hx hW hβ; rfl

/-- WHAT POINT `t` WRITES BACK is block `t` of the result. -/
theorem flushed_eq (c : Dev nD) (t : Fin cfg0.N) :
    (dats m 0 c).flushed 4 t = ((cfg0.win 4).blk t).view.read (Elt Ideal) (result m c) := by
  rw [Cert.KernelIdeal.Value.flushed4]
  obtain ⟨e00, e01, e02, e10, e11, e12, e13, e20, e21, e30, e31, e42, b0, b1⟩ := idx_facts t
  funext j
  have hj0 : (j 0).val < 1 := (j 0).isLt
  have hj1 : (j 1).val < 128 := (j 1).isLt
  have hj2 : (j 2).val < 1024 := (j 2).isLt
  show out0_4 (iblk m c 0 t) (iblk m c 1 t) (iblk m c 2 t) (iblk m c 3 t) j = result m c (((cfg0.win 4).blk t).view.emb j)
  refine (tile_entry (iblk m c 0 t) (iblk m c 1 t) (iblk m c 2 t) (iblk m c 3 t) j).trans ?_
  refine mix_congr (proj_congr (funext fun k => ?_) (funext fun o => funext fun k => ?_) (funext fun o => ?_))
    (funext fun h => funext fun g => ?_) ?_ ?_
  · -- the token's inputs
    show V m c main_arg0 (((cfg0.win 0).blk t).view.emb (ix3 (0 : Fin 1) (j 1) k)) = _
    rw [V_main_arg0]
    refine congrArg (m ((c : Thread nD τ).loc main_arg0)) (funext fun a => Fin.ext ?_)
    match a with
    | ⟨0, _⟩ => show win0_0.index t (0 : Fin 3) * 1 + 1 * 0 = win0_4.index t (0 : Fin 3) * 1 + 1 * (j 0).val; omega
    | ⟨1, _⟩ => show win0_0.index t (1 : Fin 3) * 128 + 1 * (j 1).val = win0_4.index t (1 : Fin 3) * 128 + 1 * (j 1).val; omega
    | ⟨2, _⟩ => show win0_0.index t (2 : Fin 3) * 1024 + 1 * k.val = k.val; omega
  · -- the weights
    show V m c main_v1 (((cfg0.win 2).blk t).view.emb (ix2 k o)) = _
    have hi : ((cfg0.win 2).blk t).view.emb (ix2 k o) = ix2 k o := funext fun a => Fin.ext (by
      match a with
      | ⟨0, _⟩ => show win0_2.index t (0 : Fin 2) * 1024 + 1 * k.val = k.val; omega
      | ⟨1, _⟩ => show win0_2.index t (1 : Fin 2) * 3072 + 1 * o.val = o.val; omega)
    rw [hi]
    exact V_weights_at m c k o
  · -- the bias
    show V m c main_v2 (((cfg0.win 3).blk t).view.emb (ix2 (0 : Fin 1) o)) = _
    have hi : ((cfg0.win 3).blk t).view.emb (ix2 (0 : Fin 1) o) = ix2 (0 : Fin 1) o := funext fun a => Fin.ext (by
      match a with
      | ⟨0, _⟩ => show win0_3.index t (0 : Fin 2) * 1 + 1 * 0 = 0; omega
      | ⟨1, _⟩ => show win0_3.index t (1 : Fin 2) * 3072 + 1 * o.val = o.val; omega)
    rw [hi]
    exact V_bias_at m c o
  · -- the token's mask table
    show V m c main_arg3 (((cfg0.win 1).blk t).view.emb (ix4 (0 : Fin 1) (j 1) h g)) = _
    rw [V_main_arg3]
    refine congrArg (m ((c : Thread nD τ).loc main_arg3)) (funext fun a => Fin.ext ?_)
    match a with
    | ⟨0, _⟩ => show win0_1.index t (0 : Fin 4) * 1 + 1 * 0 = win0_4.index t (0 : Fin 3) * 1 + 1 * (j 0).val; omega
    | ⟨1, _⟩ => show win0_1.index t (1 : Fin 4) * 128 + 1 * (j 1).val = win0_4.index t (1 : Fin 3) * 128 + 1 * (j 1).val; omega
    | ⟨2, _⟩ => show win0_1.index t (2 : Fin 4) * 16 + 1 * h.val = h.val; omega
    | ⟨3, _⟩ => show win0_1.index t (3 : Fin 4) * 16 + 1 * g.val = g.val; omega
  · refine congrArg headOf (Fin.ext ?_)
    show (j 2).val = win0_4.index t (2 : Fin 3) * 1024 + 1 * (j 2).val
    omega
  · refine congrArg laneOf (Fin.ext ?_)
    show (j 2).val = win0_4.index t (2 : Fin 3) * 1024 + 1 * (j 2).val
    omega

/-! ## The blocks tile the array -/

/-- An index of the array is in point `t`'s block iff each coordinate is in the block's range on its axis. -/
theorem mem_blk (t : Fin cfg0.N) (i : S4x4096x1024.Idx) :
    i ∈ ((cfg0.win 4).blk t).view.set ↔ ∀ a : Fin 3, win0_4.index t a * S1x128x1024.size a ≤ (i a).val
      ∧ (i a).val < win0_4.index t a * S1x128x1024.size a + S1x128x1024.size a := by
  show i ∈ ((View.whole main_v3).slice (win0_4.rect t)).set ↔ _
  rw [View.set_slice_whole, Rect.mem_set_unit]
  exact Iff.rfl

/-- Every index of the result array is in some point's block: the point of its batch and of its row's tile. -/
theorem cover (i : S4x4096x1024.Idx) : ∃ t : Fin cfg0.N, (cfg0.win 4).flush t = true ∧ i ∈ ((cfg0.win 4).blk t).view.set := by
  have hi0 : (i 0).val < 4 := (i 0).isLt
  have hi1 : (i 1).val < 4096 := (i 1).isLt
  have hi2 : (i 2).val < 1024 := (i 2).isLt
  obtain ⟨t, ht⟩ := idx_onto ⟨(i 0).val, hi0⟩ ⟨(i 1).val / 128, by omega⟩
  have q0 : win0_4.index t (0 : Fin 3) = (i 0).val := congrFun ht 0
  have q1 : win0_4.index t (1 : Fin 3) = (i 1).val / 128 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 128 ≤ (i 1).val ∧ (i 1).val < win0_4.index t (1 : Fin 3) * 128 + 128; omega
  | ⟨2, _⟩ => show win0_4.index t (2 : Fin 3) * 1024 ≤ (i 2).val ∧ (i 2).val < win0_4.index t (2 : Fin 3) * 1024 + 1024; omega

/-- THE ARRAY after the run is the result. -/
theorem final (c : Dev nD) : (dats m 0 c).arrAt 4 cfg0.N = result m c :=
  (dats m 0 c).arrAt_eq_of_cover 4 (result m c) (fun t _ => flushed_eq m c t) cover

/-- The run, read: the result array at head mixing of the arguments, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Cert.KernelIdeal.Value.run_blocks m ρ)

end Cert.KernelIdeal.Whole

end
-- ==== Proof.RefStages.lean ====
/-
  The reference program's stages, read at an index.

  The reference projects all 4 × 4096 tokens at once, cuts the 3072 columns into thirds and the thirds into 16 heads of 64
  lanes, takes every token's 16 × 16 score table (scaled and masked), applies the row-wise softmax and the weighted sum of the
  value heads, and lays the heads side by side again. Stage by stage, at token `(b, s)`, each array entry is the
  corresponding expression of `HeadMix` over the arguments' entries; the last stage is `HeadMix.attend` of the four
  arguments the result depends on (`result_eq`).
-/
import proofs.«108156_j52518860096440_2_alg».proof.Proof.Gen.ReferenceIdeal.Read
import proofs.«108156_j52518860096440_2_alg».proof.Proof.HeadMix
import proofs.«108156_j52518860096440_2_alg».proof.Proof.LibMaxLast
import Idealize.ShloMosaic.PureOps.Ideal.Laws
import Idealize.ShloMosaic.Lib.ValueIdx

noncomputable section

namespace Cert.ReferenceIdeal.Stages

open Cert.ReferenceIdeal Cert.ReferenceIdeal.Gen Cert.ReferenceIdeal.Read Idealize.ShloMosaic Idealize.ShloMosaic.ValueIdx
open Cert.HeadMix

variable (x0 : (⟨S4x4096x1024, .f32⟩ : BufTy).Contents (Elt Ideal)) (x3 : (⟨S4x4096x16x16, .f32⟩ : BufTy).Contents (Elt Ideal))
  (x4 : (⟨S3072x1024, .f32⟩ : BufTy).Contents (Elt Ideal)) (x5 : (⟨S3072, .f32⟩ : BufTy).Contents (Elt Ideal))

/-- Token `(b, s)`'s projected row, from the arguments. -/
abbrev row (bb : Fin 4) (s : Fin 4096) : Fin 3072 → EReal :=
  proj (fun k => x0 (ix3 bb s k)) (fun o k => x4 (ix2 o k)) (fun o => x5 (ix1 o))

/-- The projection with its bias at `(b, s, o)`. -/
theorem v3_at (bb : Fin 4) (s : Fin 4096) (o : Fin 3072) :
    val_main_v3 (F := Ideal) x0 x4 x5 (ix3 bb s o) = row x0 x4 x5 bb s o := by
  rw [val_main_v3_apply, val_main_v0_apply, val_main_v2_apply, val_main_v1_apply]
  unfold row proj
  show (∑ k : Fin 1024, _) + _ = _
  congr 1
  · refine Finset.sum_congr rfl fun k _ => ?_
    congr 1
    · refine congrArg x0 (funext fun a => Fin.ext ?_)
      match a with
      | ⟨0, _⟩ => rfl
      | ⟨1, _⟩ => rfl
      | ⟨2, _⟩ => rfl
    · refine congrArg x4 (funext fun a => Fin.ext ?_)
      match a with
      | ⟨0, _⟩ => rfl
      | ⟨1, _⟩ => rfl
  · refine congrArg x5 (funext fun a => Fin.ext ?_)
    match a with
    | ⟨0, _⟩ => rfl

/-- Lane `d` of query head `h` of token `(b, s)`. -/
theorem v7_at (bb : Fin 4) (s : Fin 4096) (h : Fin 16) (d : Fin 64) :
    val_main_v7 (F := Ideal) x0 x4 x5 (ix4 bb s h d) = row x0 x4 x5 bb s (col 0 (by decide) h d) := by
  have hb := bb.isLt; have hs := s.isLt; have hh := h.isLt; have hd := d.isLt
  rw [val_main_v7_apply, val_main_v4_apply, ← v3_at]
  refine congrArg (val_main_v3 (F := Ideal) x0 x4 x5) (funext fun a => Fin.ext ?_)
  match a with
  | ⟨0, _⟩ => show (((bb.val * 4096 + s.val) * 16 + h.val) * 64 + d.val) / 4194304 = bb.val; omega
  | ⟨1, _⟩ => show (((bb.val * 4096 + s.val) * 16 + h.val) * 64 + d.val) / 1024 % 4096 = s.val; omega
  | ⟨2, _⟩ => show (((bb.val * 4096 + s.val) * 16 + h.val) * 64 + d.val) % 1024 = 0 + (h.val * 64 + d.val); omega

/-- Lane `d` of key head `h` of token `(b, s)`. -/
theorem v8_at (bb : Fin 4) (s : Fin 4096) (h : Fin 16) (d : Fin 64) :
    val_main_v8 (F := Ideal) x0 x4 x5 (ix4 bb s h d) = row x0 x4 x5 bb s (col 1024 (by decide) h d) := by
  have hb := bb.isLt; have hs := s.isLt; have hh := h.isLt; have hd := d.isLt
  rw [val_main_v8_apply, val_main_v5_apply, ← v3_at]
  refine congrArg (val_main_v3 (F := Ideal) x0 x4 x5) (funext fun a => Fin.ext ?_)
  match a with
  | ⟨0, _⟩ => show (((bb.val * 4096 + s.val) * 16 + h.val) * 64 + d.val) / 4194304 = bb.val; omega
  | ⟨1, _⟩ => show (((bb.val * 4096 + s.val) * 16 + h.val) * 64 + d.val) / 1024 % 4096 = s.val; omega
  | ⟨2, _⟩ => show 1024 + (((bb.val * 4096 + s.val) * 16 + h.val) * 64 + d.val) % 1024 = 1024 + (h.val * 64 + d.val); omega

/-- Lane `d` of value head `h` of token `(b, s)`. -/
theorem v9_at (bb : Fin 4) (s : Fin 4096) (h : Fin 16) (d : Fin 64) :
    val_main_v9 (F := Ideal) x0 x4 x5 (ix4 bb s h d) = row x0 x4 x5 bb s (col 2048 (by decide) h d) := by
  have hb := bb.isLt; have hs := s.isLt; have hh := h.isLt; have hd := d.isLt
  rw [val_main_v9_apply, val_main_v6_apply, ← v3_at]
  refine congrArg (val_main_v3 (F := Ideal) x0 x4 x5) (funext fun a => Fin.ext ?_)
  match a with
  | ⟨0, _⟩ => show (((bb.val * 4096 + s.val) * 16 + h.val) * 64 + d.val) / 4194304 = bb.val; omega
  | ⟨1, _⟩ => show (((bb.val * 4096 + s.val) * 16 + h.val) * 64 + d.val) / 1024 % 4096 = s.val; omega
  | ⟨2, _⟩ => show 2048 + (((bb.val * 4096 + s.val) * 16 + h.val) * 64 + d.val) % 1024 = 2048 + (h.val * 64 + d.val); omega

/-- Token `(b, s)`'s mask table, from the argument. -/
abbrev maskOf (bb : Fin 4) (s : Fin 4096) : Fin 16 → Fin 16 → EReal := fun h g => x3 (ix4 bb s h g)

/-- Entry `(h, g)` of token `(b, s)`'s score table. -/
theorem v13_at (bb : Fin 4) (s : Fin 4096) (h g : Fin 16) :
    val_main_v13 (F := Ideal) x0 x3 x4 x5 (ix4 bb s h g) = score (row x0 x4 x5 bb s) (maskOf x3 bb s) h g := by
  rw [val_main_v13_apply, val_main_v12_apply, val_main_v10_apply, val_main_v11_apply, val_main_cst_apply]
  unfold score
  show (∑ k : Fin 64, _) * _ + _ = _
  congr 2
  refine Finset.sum_congr rfl fun k _ => ?_
  have el : lidx_main_v10 (ix4 bb s h g) k = ix4 bb s h k := funext fun a => Fin.ext (by
    match a with
    | ⟨0, _⟩ => rfl
    | ⟨1, _⟩ => rfl
    | ⟨2, _⟩ => rfl
    | ⟨3, _⟩ => rfl)
  have er : ridx_main_v10 (ix4 bb s h g) k = ix4 bb s g k := funext fun a => Fin.ext (by
    match a with
    | ⟨0, _⟩ => rfl
    | ⟨1, _⟩ => rfl
    | ⟨2, _⟩ => rfl
    | ⟨3, _⟩ => rfl)
  rw [el, er, v7_at, v8_at]

/-- Token `(b, s)`'s score table as a function. -/
abbrev table (bb : Fin 4) (s : Fin 4096) : Fin 16 → Fin 16 → EReal := score (row x0 x4 x5 bb s) (maskOf x3 bb s)

theorem v13_fun (bb : Fin 4) (s : Fin 4096) :
    (fun h g => val_main_v13 (F := Ideal) x0 x3 x4 x5 (ix4 bb s h g)) = table x0 x3 x4 x5 bb s :=
  funext fun h => funext fun g => v13_at x0 x3 x4 x5 bb s h g

/-- The maximum of row `h` of that table. -/
theorem v16_at (bb : Fin 4) (s : Fin 4096) (h : Fin 16) :
    val_main_v16 (F := Ideal) x0 x3 x4 x5 (ix3 bb s h) = rowMax (table x0 x3 x4 x5 bb s) h := by
  rw [val_main_v16_apply, val_main_v15_apply, val_main_cst_1_apply, ← v13_fun]
  unfold val_main_v14 rowMax
  rw [Cert.LibMaxLast.hostMax_last4 _ _ reducesTo_S4x4096x16x16_S4x4096x16_d3 (by decide) h_S_ bb s h]
  rfl

theorem v20_at (bb : Fin 4) (s : Fin 4096) (h g : Fin 16) :
    val_main_v20 (F := Ideal) x0 x3 x4 x5 (ix4 bb s h g) = expo (table x0 x3 x4 x5 bb s) h g := by
  rw [val_main_v20_apply, val_main_v19_apply, val_main_v18_apply, val_main_v17_apply]
  have e : idx_main_v17 (idx_main_v18 (ix4 bb s h g)) = ix3 bb s h := funext fun a => Fin.ext (by
    match a with
    | ⟨0, _⟩ => rfl
    | ⟨1, _⟩ => rfl
    | ⟨2, _⟩ => rfl)
  rw [e, v16_at, v13_at]
  rfl

theorem v24_at (bb : Fin 4) (s : Fin 4096) (h g : Fin 16) :
    val_main_v24 (F := Ideal) x0 x3 x4 x5 (ix4 bb s h g) = weight (table x0 x3 x4 x5 bb s) h g := by
  rw [val_main_v24_apply, val_main_v23_apply, val_main_v22_apply, val_main_v21_apply, val_main_cst_2_apply]
  have e : idx_main_v22 (idx_main_v23 (ix4 bb s h g)) = ix3 bb s h := funext fun a => Fin.ext (by
    match a with
    | ⟨0, _⟩ => rfl
    | ⟨1, _⟩ => rfl
    | ⟨2, _⟩ => rfl)
  rw [e, v20_at]
  unfold weight
  show Ideal.div _ (Ideal.ofBits .f32 0x00000000#32 + _) = _
  rw [Ideal.ofBits_zero_f32, zero_add]
  congr 1
  refine Finset.sum_congr rfl fun k _ => ?_
  have ek : idx_main_v21 (ix3 bb s h) k = ix4 bb s h k := funext fun a => Fin.ext (by
    match a with
    | ⟨0, _⟩ => rfl
    | ⟨1, _⟩ => rfl
    | ⟨2, _⟩ => rfl
    | ⟨3, _⟩ => rfl)
  rw [ek, v20_at]

/-- Output lane `(h, d)` of token `(b, s)`. -/
theorem v25_at (bb : Fin 4) (s : Fin 4096) (h : Fin 16) (d : Fin 64) :
    val_main_v25 (F := Ideal) x0 x3 x4 x5 (ix4 bb s h d) = mix (row x0 x4 x5 bb s) (maskOf x3 bb s) h d := by
  rw [val_main_v25_apply]
  unfold mix
  refine Finset.sum_congr rfl fun g _ => ?_
  have el : lidx_main_v25 (ix4 bb s h d) g = ix4 bb s h g := funext fun a => Fin.ext (by
    match a with
    | ⟨0, _⟩ => rfl
    | ⟨1, _⟩ => rfl
    | ⟨2, _⟩ => rfl
    | ⟨3, _⟩ => rfl)
  have er : ridx_main_v25 (ix4 bb s h d) g = ix4 bb s g d := funext fun a => Fin.ext (by
    match a with
    | ⟨0, _⟩ => rfl
    | ⟨1, _⟩ => rfl
    | ⟨2, _⟩ => rfl
    | ⟨3, _⟩ => rfl)
  rw [el, er, v24_at, v9_at]

/-- The reference's result is `attend` of its arguments. -/
theorem result_eq : val_main_v26 (F := Ideal) x0 x3 x4 x5 = attend x0 x3 x4 x5 := by
  funext i
  have h0 : (i 0).val < 4 := (i 0).isLt
  have h1 : (i 1).val < 4096 := (i 1).isLt
  have h2 : (i 2).val < 1024 := (i 2).isLt
  rw [val_main_v26_apply]
  have e : idx_main_v26 i = ix4 (i 0) (i 1) (headOf (i 2)) (laneOf (i 2)) := funext fun a => Fin.ext (by
    match a with
    | ⟨0, _⟩ => show (((i 0).val * 4096 + (i 1).val) * 1024 + (i 2).val) / 4194304 = (i 0).val; omega
    | ⟨1, _⟩ => show (((i 0).val * 4096 + (i 1).val) * 1024 + (i 2).val) / 1024 % 4096 = (i 1).val; omega
    | ⟨2, _⟩ => show (((i 0).val * 4096 + (i 1).val) * 1024 + (i 2).val) / 64 % 16 = (i 2).val / 64; omega
    | ⟨3, _⟩ => show (((i 0).val * 4096 + (i 1).val) * 1024 + (i 2).val) % 64 = (i 2).val % 64; omega)
  rw [e]
  exact v25_at x0 x3 x4 x5 (i 0) (i 1) (headOf (i 2)) (laneOf (i 2))

end Cert.ReferenceIdeal.Stages

end
-- ==== Proof.lean ====
/-
  Head mixing within each token: the tiled kernel and the whole-batch reference compute one function on the extended reals.

  Both programs project each of the 4 × 4096 tokens' 1024 inputs to a row of 3072 numbers (a linear map plus a bias; only the
  first input array is used), read the row as queries, keys and values of 16 heads with 64 lanes each, take the 16 × 16 table
  of scaled and masked query-key inner products, apply a softmax to each row of the table (maximum from -∞, exponentials, their
  sum, the quotient), and combine the value heads with those weights. The kernel does this for 128 tokens at a time on a
  4 × 32 grid, with the weight matrix transposed beforehand and a change of number format that is the identity here; the
  reference does it for the whole batch at once. The two differ only in how the arrays are cut and laid out, so the proof
  reads both, entry by entry, as the same expression `HeadMix.attend` of the arguments: the kernel's tile in `KernelTile`,
  its whole result array in `KernelArray`, the reference's stages in `RefStages`. No law of arithmetic beyond the
  re-indexing of finite sums is used, so the finiteness of the inputs is not needed.

  The three frames are the generated ones (the reference's is its generated run with the result dropped), and the
  idealization rewrote nothing, so that claim is trivial.
-/
import proofs.«108156_j52518860096440_2_alg».proof.Defs
import proofs.«108156_j52518860096440_2_alg».proof.Proof.Gen.Kernel
import proofs.«108156_j52518860096440_2_alg».proof.Proof.Gen.Kernel.Skeleton
import proofs.«108156_j52518860096440_2_alg».proof.Proof.Gen.Kernel.Launch
import proofs.«108156_j52518860096440_2_alg».proof.Proof.Gen.Kernel.Points
import proofs.«108156_j52518860096440_2_alg».proof.Proof.Gen.Kernel.Frame
import proofs.«108156_j52518860096440_2_alg».proof.Proof.Gen.KernelIdeal
import proofs.«108156_j52518860096440_2_alg».proof.Proof.Gen.KernelIdeal.Skeleton
import proofs.«108156_j52518860096440_2_alg».proof.Proof.Gen.KernelIdeal.Launch
import proofs.«108156_j52518860096440_2_alg».proof.Proof.Gen.KernelIdeal.Points
import proofs.«108156_j52518860096440_2_alg».proof.Proof.Gen.KernelIdeal.Frame
import proofs.«108156_j52518860096440_2_alg».proof.Proof.Gen.ReferenceIdeal
import proofs.«108156_j52518860096440_2_alg».proof.Proof.Gen.Pre_finite_inputs
import proofs.«108156_j52518860096440_2_alg».proof.Proof.Gen.KernelIdeal.Value
import proofs.«108156_j52518860096440_2_alg».proof.Proof.Gen.ReferenceIdeal.Run
import proofs.«108156_j52518860096440_2_alg».proof.Proof.Gen.ReferenceIdeal.Read
import proofs.«108156_j52518860096440_2_alg».proof.Proof.KernelArray
import proofs.«108156_j52518860096440_2_alg».proof.Proof.RefStages
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments, the kernel's result array and the reference's both end at
    `HeadMix.attend` of the first, fourth, fifth and sixth arguments. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, Cert.ReferenceIdeal.Stages.result_eq, (hagree c).1, (hagree c).2.2.2.1,
    (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
